-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S50000x128 .f32) (main_arg1 : IVec S2x800000 32) (main_arg2 : FVec F S40x128 .f32) (main_arg3 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S40x128 .f32 := Host.absf main_arg2
  let main_cst_0 : FVec F S_ .f32 := constant S_ .f32 0x7F800000#32
  let main_v5 : FVec F S40x128 .f32 := broadcastInDim S40x128 ![] bcast_S_S40x128 main_cst_0
  let main_v6 : IVec S40x128 1 := cmpf .olt main_v4 main_v5
  let main_c_1 : IVec S_ 1 := constantI S_ 1 1#1
  let main_v7 : IVec S_ 1 := (fun x v => Host.reduce IntOp.andi x v reducesTo_S40x128_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x40 : Shape := ⟨2, ![50000, 40]⟩
abbrev S5000x128 : Shape := ⟨2, ![5000, 128]⟩
abbrev S5000x40 : Shape := ⟨2, ![5000, 40]⟩
abbrev S128x40 : Shape := ⟨2, ![128, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 79
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S40x128, .f32⟩
  | .hbm, ⟨3, _⟩ => ⟨S40, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x40, .f32⟩
  | .hbm, ⟨26, _⟩ => ⟨S50000x40, .f32⟩
  | .hbm, ⟨27, _⟩ => ⟨S50000x40, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000x40, .f32⟩
  | .hbm, ⟨37, _⟩ => ⟨S_, .f32⟩
  | .hbm, ⟨38, _⟩ => ⟨S50000x40, .f32⟩
  | .hbm, ⟨39, _⟩ => ⟨S850000x1, .i32⟩
  | .hbm, ⟨40, _⟩ => ⟨S50000x40, .f32⟩
  | .hbm, ⟨41, _⟩ => ⟨S50000x40, .f32⟩
  | .hbm, ⟨42, _⟩ => ⟨S50000x40, .f32⟩
  | .hbm, ⟨43, _⟩ => ⟨S50000x40, .f32⟩
  | .hbm, ⟨44, _⟩ => ⟨S50000x40, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x40, .f32⟩
  | .hbm, ⟨54, _⟩ => ⟨S_, .f32⟩
  | .hbm, ⟨55, _⟩ => ⟨S50000x40, .f32⟩
  | .hbm, ⟨56, _⟩ => ⟨S850000x1, .i32⟩
  | .hbm, ⟨57, _⟩ => ⟨S50000x40, .f32⟩
  | .hbm, ⟨58, _⟩ => ⟨S50000x40, .f32⟩
  | .hbm, ⟨59, _⟩ => ⟨S50000x40, .f32⟩
  | .hbm, ⟨60, _⟩ => ⟨S50000x40, .f32⟩
  | .hbm, ⟨61, _⟩ => ⟨S50000x40, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x40, .f32⟩
  | .hbm, ⟨71, _⟩ => ⟨S_, .f32⟩
  | .hbm, ⟨72, _⟩ => ⟨S50000x40, .f32⟩
  | .hbm, ⟨73, _⟩ => ⟨S850000x1, .i32⟩
  | .hbm, ⟨74, _⟩ => ⟨S50000x40, .f32⟩
  | .hbm, ⟨75, _⟩ => ⟨S50000x40, .f32⟩
  | .hbm, ⟨76, _⟩ => ⟨S50000x40, .f32⟩
  | .hbm, ⟨77, _⟩ => ⟨S1x40, .f32⟩
  | .hbm, ⟨78, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S40x128, .f32⟩
  | .local _ .vmem, ⟨3, _⟩ => ⟨S5000x40, .f32⟩
  | .local _ .vmem, ⟨4, _⟩ => ⟨S5000x40, .f32⟩
  | .local _ .vmem, ⟨5, _⟩ => ⟨S5000x40, .f32⟩
  | .local _ .vmem, ⟨6, _⟩ => ⟨S5000x40, .f32⟩
  | .local _ .vmem, ⟨7, _⟩ => ⟨S1x40, .f32⟩
  | .local _ .vmem, ⟨8, _⟩ => ⟨S5000x40, .f32⟩
  | .local _ .vmem, ⟨9, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x40 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S40x128_S40x128_0_0 : ∀ a, (![0, 0] : Fin 2 → Nat) a + S40x128.size a ≤ S40x128.size a
  h_S40x128 : 0 < S40x128.numel
  transposes_S40x128_p1_0_S128x40 : S40x128.Transposes [1, 0] S128x40
  inb_S5000x40_S5000x40_0_0 : ∀ a, (![0, 0] : Fin 2 → Nat) a + S5000x40.size a ≤ S5000x40.size a
  h_S5000x40 : 0 < S5000x40.numel
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x128.size a ≤ S40x128.size a
  hwx0_1 : ∀ i : grid0.Coords, EltTy.bits .f32 = 32 ∨ (Rect.block (s := S40x128) S40x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x40.size a ≤ S50000x40.size a
  hwx0_2 : ∀ i : grid0.Coords, EltTy.bits .f32 = 32 ∨ (Rect.block (s := S50000x40) S5000x40.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S50000x40.size a
  hwx1_0 : ∀ i : grid1.Coords, EltTy.bits .f32 = 32 ∨ (Rect.block (s := S50000x40) S5000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x40.size a ≤ S1x40.size a
  hwx1_1 : ∀ i : grid1.Coords, EltTy.bits .f32 = 32 ∨ (Rect.block (s := S1x40) S1x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x40.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v59) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x40 : Shape := ⟨2, ![128, 40]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 111
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S40x128, .f32⟩
  | .hbm, ⟨3, _⟩ => ⟨S40, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S850000, .i32⟩
  | .hbm, ⟨26, _⟩ => ⟨S850000, .i1⟩
  | .hbm, ⟨27, _⟩ => ⟨S_, .i32⟩
  | .hbm, ⟨28, _⟩ => ⟨S850000, .i32⟩
  | .hbm, ⟨29, _⟩ => ⟨S850000, .i32⟩
  | .hbm, ⟨30, _⟩ => ⟨S850000, .i32⟩
  | .hbm, ⟨31, _⟩ => ⟨S850000x1, .i32⟩
  | .hbm, ⟨32, _⟩ => ⟨S850000, .f32⟩
  | .hbm, ⟨33, _⟩ => ⟨S_, .i32⟩
  | .hbm, ⟨34, _⟩ => ⟨S850000, .i32⟩
  | .hbm, ⟨35, _⟩ => ⟨S850000, .i1⟩
  | .hbm, ⟨36, _⟩ => ⟨S_, .i32⟩
  | .hbm, ⟨37, _⟩ => ⟨S850000, .i32⟩
  | .hbm, ⟨38, _⟩ => ⟨S850000, .i32⟩
  | .hbm, ⟨39, _⟩ => ⟨S850000, .i32⟩
  | .hbm, ⟨40, _⟩ => ⟨S850000x1, .i32⟩
  | .hbm, ⟨41, _⟩ => ⟨S850000, .f32⟩
  | .hbm, ⟨42, _⟩ => ⟨S850000, .f32⟩
  | .hbm, ⟨43, _⟩ => ⟨S850000x1, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000x128, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S850000x1, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S128x40, .f32⟩
  | .hbm, ⟨92, _⟩ => ⟨S50000x40, .f32⟩
  | .hbm, ⟨93, _⟩ => ⟨S1x40, .f32⟩
  | .hbm, ⟨94, _⟩ => ⟨S50000x40, .f32⟩
  | .hbm, ⟨95, _⟩ => ⟨S50000x40, .f32⟩
  | .hbm, ⟨96, _⟩ => ⟨S_, .f32⟩
  | .hbm, ⟨97, _⟩ => ⟨S50000, .f32⟩
  | .hbm, ⟨98, _⟩ => ⟨S_, .f32⟩
  | .hbm, ⟨99, _⟩ => ⟨S50000, .f32⟩
  | .hbm, ⟨100, _⟩ => ⟨S50000, .f32⟩
  | .hbm, ⟨101, _⟩ => ⟨S50000x1, .f32⟩
  | .hbm, ⟨102, _⟩ => ⟨S50000x40, .f32⟩
  | .hbm, ⟨103, _⟩ => ⟨S50000x40, .f32⟩
  | .hbm, ⟨104, _⟩ => ⟨S50000x40, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x1, .f32⟩
  | .hbm, ⟨109, _⟩ => ⟨S50000x40, .f32⟩
  | .hbm, ⟨110, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_9 : Ref sig .tc := ⟨.hbm, 60, rfl⟩
abbrev main_v45 : Ref sig .tc := ⟨.hbm, 61, rfl⟩
abbrev main_v46 : Ref sig .tc := ⟨.hbm, 62, rfl⟩
abbrev main_c_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_12 : Ref sig .tc := ⟨.hbm, 76, rfl⟩
abbrev main_v58 : Ref sig .tc := ⟨.hbm, 77, rfl⟩
abbrev main_v59 : Ref sig .tc := ⟨.hbm, 78, rfl⟩
abbrev main_c_13 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call1_cst : Ref sig .tc := ⟨.hbm, 96, rfl⟩
abbrev main_call1_v0 : Ref sig .tc := ⟨.hbm, 97, rfl⟩
abbrev main_call1_cst_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_cst_1 : Ref sig .tc := ⟨.hbm, 105, rfl⟩
abbrev main_call1_v7 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_v75 : Ref sig .tc := ⟨.hbm, 110, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel's run with its result named.

  The program is two pipelined regions among stretches of host operations. Its run is a chain of segments, and the
  contents of every buffer at the end of the chain is a fold through the program: each host stretch applies its
  operations to the contents before it, each region leaves its arrays at what its write-backs produce and every
  other buffer as it found it. Every execution terminates without a fault with every buffer at the end of that fold;
  read at the result buffer this names the program's result, and read at the four arguments it gives them back as
  launched.
-/
import proofs.«119294_j16020228014933_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the end of the
    fold through the program's segments and the four argument arrays as launched. -/
theorem run : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.KernelIdeal.RunValue

end
-- ==== Proof.KernelHost.lean ====
/-
  The idealized kernel's host operations, read between its two regions.

  Before the first region the host builds, from the edge list alone, the source and target id vectors (the edge list's two
  rows, each followed by one self-loop id per node), the in-degree of every node (a scatter-add of ones by target id) and
  its inverse square root where the degree is positive (zero elsewhere), kept as a column. The first region then projects
  the node features. Between the regions the host runs three propagation steps on the projected features, each one
  "scale the rows by the column, gather the source rows, scatter-add them by target id, scale the rows again", and reshapes
  the bias to a row. This file names those pieces as functions of the arrays they read and states what the two regions
  find in their input arrays: the first region finds the features and the weights as launched, the second finds the three
  steps applied to what the first region left, and the bias row.
-/
import proofs.«119294_j16020228014933_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- The source ids: row 0 of the edge list, then the node numbers `0 … 49999` (the self-loops). -/
def rowIds (ei : IVec S2x800000 32) : IVec S850000 32 :=
  concatenate S850000 0 [⟨S800000, shapeCast _ (extractStridedSlice S1x800000 ![0, 0] ei slices_S2x800000_S1x800000_0_0) shapeCasts_S1x800000_S800000⟩, ⟨S50000, iotaInDim S50000 32 0⟩] concatenates_S800000_S50000_S850000_d0

/-- The target ids: row 1 of the edge list, then the node numbers. -/
def colIds (ei : IVec S2x800000 32) : IVec S850000 32 :=
  concatenate S850000 0 [⟨S800000, shapeCast _ (extractStridedSlice S1x800000 ![1, 0] ei slices_S2x800000_S1x800000_1_0) shapeCasts_S1x800000_S800000⟩, ⟨S50000, iotaInDim S50000 32 0⟩] concatenates_S800000_S50000_S850000_d0

/-- The in-degrees: ones scatter-added into zeros by target id. -/
def degree (ei : IVec S2x800000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (colIds ei)) (broadcastInDim S850000 ![] bcast_S_S850000 (constant S_ .f32 0x3F800000#32))

/-- The inverse square root of the degree where the degree is positive, zero elsewhere. -/
def invSqrtDeg (ei : IVec S2x800000 32) : FVec F S50000 .f32 :=
  select (cmpf .ogt (degree (F := F) ei) (broadcastInDim S50000 ![] bcast_S_S50000 (constant S_ .f32 0x00000000#32)))
    (Host.rsqrt (degree (F := F) ei)) (broadcastInDim S50000 ![] bcast_S_S50000 (constant S_ .f32 0x00000000#32))

/-- An id vector as the gather reads it: a negative id moved up by the number of nodes, then the vector as a column. -/
def wrapCol (ids : IVec S850000 32) : IVec S850000x1 32 :=
  broadcastInDim S850000x1 ![0] bcast_S850000_S850000x1_0
    (select (cmpi .slt ids (broadcastInDim S850000 ![] bcast_S_S850000 (constantI S_ 32 0#32)))
      (addi ids (broadcastInDim S850000 ![] bcast_S_S850000 (constantI S_ 32 50000#32))) ids)

/-- One propagation step with the weights at the nodes: scale the rows of `h` by the column `d1`, gather the source
    rows, scatter-add them into zeros by target id, scale the rows of the result by `d1`. -/
def nodeHop (d1 : FVec F S50000x1 .f32) (rows cols : IVec S850000 32) (h : FVec F S50000x40 .f32) : FVec F S50000x40 .f32 :=
  mulf (broadcastInDim S50000x40 ![0, 1] bcast_S50000x1_S50000x40_0_1 d1)
    (Host.scatterAdd scatter_S50000x40_S850000x1_S850000x40_1_0_0_1 (broadcastInDim S50000x40 ![] bcast_S_S50000x40 (constant S_ .f32 0x00000000#32))
      (broadcastInDim S850000x1 ![0] bcast_S850000_S850000x1_0 cols)
      (Host.gather gather_S50000x40_S850000x1_S850000x40_1_0_n_n_0_1_140
        (mulf (broadcastInDim S50000x40 ![0, 1] bcast_S50000x1_S50000x40_0_1 d1) h) (wrapCol rows)))

variable (m : (ℓ : Loc nD τ sig) → Buf (Elt F) ℓ) (ρ : Dev nD → PrngReg)

/-! ## What the host stretches before the first region leave -/

/-- A buffer none of the three stretches before the first region writes is still at its launch contents. -/
theorem W3_of_launch (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem (b := Proc.devRef .tc b) _ _ h2
    _ = W1 m ρ c (Proc.devRef .tc b) := StableHlo.after_of_forall_not_mem (b := Proc.devRef .tc b) _ _ h1
    _ = W0 m ρ c (Proc.devRef .tc b) := StableHlo.after_of_forall_not_mem (b := Proc.devRef .tc b) _ _ h0
    _ = m ((c : Thread nD τ).loc b) := rfl

/-- No operation of a list writes a buffer: each operation's one written buffer is another one. -/
macro "no_write" l:ident : tactic => `(tactic| (
  refine List.forall_iff_forall_mem.mp ?_
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The first region finds the node features as launched. -/
theorem V3_features (c : Dev nD) : V3 m ρ c main_arg0 = m ((c : Thread nD τ).loc main_arg0) :=
  W3_of_launch m ρ c main_arg0 (by no_write hostOps0) (by no_write hostOps0_1) (by no_write hostOps0_2)

/-- The first region finds the weights as launched. -/
theorem V3_weights (c : Dev nD) : V3 m ρ c main_arg2 = m ((c : Thread nD τ).loc main_arg2) :=
  W3_of_launch m ρ c main_arg2 (by no_write hostOps0) (by no_write hostOps0_1) (by no_write hostOps0_2)

/-- After the stretches before the first region the source ids are `rowIds` of the launched edge list. -/
theorem W3_rowIds (c : Dev nD) : W3 m ρ c (Proc.devRef .tc main_v5) = rowIds (m ((c : Thread nD τ).loc main_arg1)) :=
  calc W3 m ρ c (Proc.devRef .tc main_v5)
    _ = W2 m ρ c (Proc.devRef .tc main_v5) := StableHlo.after_of_forall_not_mem (b := Proc.devRef .tc main_v5) _ _ (by no_write hostOps0_2)
    _ = W1 m ρ c (Proc.devRef .tc main_v5) := StableHlo.after_of_forall_not_mem (b := Proc.devRef .tc main_v5) _ _ (by no_write hostOps0_1)
    _ = rowIds (m ((c : Thread nD τ).loc main_arg1)) := by
        show StableHlo.after hostOps0 (W0 m ρ c) (Proc.devRef .tc main_v5) = _
        after_results
        all_goals rfl

/-- … and the target ids `colIds` of it. -/
theorem W3_colIds (c : Dev nD) : W3 m ρ c (Proc.devRef .tc main_v6) = colIds (m ((c : Thread nD τ).loc main_arg1)) :=
  calc W3 m ρ c (Proc.devRef .tc main_v6)
    _ = W2 m ρ c (Proc.devRef .tc main_v6) := StableHlo.after_of_forall_not_mem (b := Proc.devRef .tc main_v6) _ _ (by no_write hostOps0_2)
    _ = W1 m ρ c (Proc.devRef .tc main_v6) := StableHlo.after_of_forall_not_mem (b := Proc.devRef .tc main_v6) _ _ (by no_write hostOps0_1)
    _ = colIds (m ((c : Thread nD τ).loc main_arg1)) := by
        show StableHlo.after hostOps0 (W0 m ρ c) (Proc.devRef .tc main_v6) = _
        after_results
        all_goals rfl

/-- After the first stretch: the comparison "degree > 0", the inverse square root of the degree, and zeros. -/
theorem W1_positive (c : Dev nD) : W1 m ρ c (Proc.devRef .tc main_v12)
    = cmpf .ogt (degree (F := F) (m ((c : Thread nD τ).loc main_arg1))) (broadcastInDim S50000 ![] bcast_S_S50000 (constant S_ .f32 0x00000000#32)) := by
  show StableHlo.after hostOps0 (W0 m ρ c) (Proc.devRef .tc main_v12) = _
  after_results
  all_goals rfl

theorem W1_rsqrt (c : Dev nD) : W1 m ρ c (Proc.devRef .tc main_v13)
    = Host.rsqrt (degree (F := F) (m ((c : Thread nD τ).loc main_arg1))) := by
  show StableHlo.after hostOps0 (W0 m ρ c) (Proc.devRef .tc main_v13) = _
  after_results
  all_goals rfl

theorem W1_zeros (c : Dev nD) : W1 m ρ c (Proc.devRef .tc main_v14)
    = (broadcastInDim S50000 ![] bcast_S_S50000 (constant S_ .f32 0x00000000#32) : FVec F S50000 .f32) := by
  show StableHlo.after hostOps0 (W0 m ρ c) (Proc.devRef .tc main_v14) = _
  after_results
  all_goals rfl

/-- The second stretch selects between them. -/
theorem W2_select (c : Dev nD) : W2 m ρ c (Proc.devRef .tc main_v15)
    = select (W1 m ρ c (Proc.devRef .tc main_v12)) (W1 m ρ c (Proc.devRef .tc main_v13)) (W1 m ρ c (Proc.devRef .tc main_v14)) := by
  show StableHlo.after hostOps0_1 (W1 m ρ c) (Proc.devRef .tc main_v15) = _
  generalize W1 m ρ c = Wx
  after_results
  all_goals rfl

/-- The third stretch makes the result a column. -/
theorem W3_column (c : Dev nD) : W3 m ρ c (Proc.devRef .tc main_v16)
    = broadcastInDim S50000x1 ![0] bcast_S50000_S50000x1_0 (W2 m ρ c (Proc.devRef .tc main_v15)) := by
  show StableHlo.after hostOps0_2 (W2 m ρ c) (Proc.devRef .tc main_v16) = _
  generalize W2 m ρ c = Wx
  after_results
  all_goals rfl

/-- … and the scaling column is the inverse square root of the degree, as a column. -/
theorem W3_scale (c : Dev nD) : W3 m ρ c (Proc.devRef .tc main_v16)
    = broadcastInDim S50000x1 ![0] bcast_S50000_S50000x1_0 (invSqrtDeg (F := F) (m ((c : Thread nD τ).loc main_arg1))) := by
  rw [W3_column, W2_select, W1_positive, W1_rsqrt, W1_zeros]
  rfl

/-! ## What the second region finds -/

set_option maxHeartbeats 4000000 in
/-- The second region's first input array: three propagation steps applied to what the first region left in its
    output array, with the scaling column and the two id vectors the stretches before the first region built. -/
theorem V5_propagated (c : Dev nD) : V5 m ρ c main_v59
    = nodeHop (W4 m ρ c (Proc.devRef .tc main_v16)) (W4 m ρ c (Proc.devRef .tc main_v5)) (W4 m ρ c (Proc.devRef .tc main_v6))
        (nodeHop (W4 m ρ c (Proc.devRef .tc main_v16)) (W4 m ρ c (Proc.devRef .tc main_v5)) (W4 m ρ c (Proc.devRef .tc main_v6))
          (nodeHop (W4 m ρ c (Proc.devRef .tc main_v16)) (W4 m ρ c (Proc.devRef .tc main_v5)) (W4 m ρ c (Proc.devRef .tc main_v6))
            (W4 m ρ c (Proc.devRef .tc main_v17)))) := by
  show StableHlo.after hostOps1 (W4 m ρ c) (Proc.devRef .tc main_v59) = _
  generalize W4 m ρ c = Wx
  after_results_simp
  all_goals rfl

set_option maxHeartbeats 4000000 in
/-- The second region's second input array: the bias as a row. -/
theorem V5_bias (c : Dev nD) : V5 m ρ c main_v60
    = shapeCast S1x40 (W4 m ρ c (Proc.devRef .tc main_arg3)) shapeCasts_S40_S1x40 := by
  show StableHlo.after hostOps1 (W4 m ρ c) (Proc.devRef .tc main_v60) = _
  generalize W4 m ρ c = Wx
  after_results_simp
  all_goals rfl

/-- A buffer that is not an array of the first region keeps, across it, what the stretches before it left. -/
theorem W4_scale (c : Dev nD) : W4 m ρ c (Proc.devRef .tc main_v16) = W3 m ρ c (Proc.devRef .tc main_v16) := W4_of_ne m ρ c main_v16 (by decide)
theorem W4_rowIds (c : Dev nD) : W4 m ρ c (Proc.devRef .tc main_v5) = W3 m ρ c (Proc.devRef .tc main_v5) := W4_of_ne m ρ c main_v5 (by decide)
theorem W4_colIds (c : Dev nD) : W4 m ρ c (Proc.devRef .tc main_v6) = W3 m ρ c (Proc.devRef .tc main_v6) := W4_of_ne m ρ c main_v6 (by decide)
theorem W4_bias (c : Dev nD) : W4 m ρ c (Proc.devRef .tc main_arg3) = m ((c : Thread nD τ).loc main_arg3) :=
  (W4_of_ne m ρ c main_arg3 (by decide)).trans
    (W3_of_launch m ρ c main_arg3 (by no_write hostOps0) (by no_write hostOps0_1) (by no_write hostOps0_2))

end Cert.KernelIdeal.HostSide

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.Region0Value.lean ====
/-
  The first region: the dense projection, block by block.

  The grid has ten points; point `t` loads rows `5000 t … 5000 t + 4999` of the node features (all 128 columns) and
  the whole 40-by-128 weight matrix, and stores the 5000-by-40 product of the row block with the transposed weights.
  At the ideal values a change of float format is the identity and the product into a zero accumulator is the plain sum,
  so entry `(p, c)` of a block is `∑ k, x (p, k) * w (c, k)`. The ten row blocks tile the 50000 rows, so after the
  region the output array holds, at every `(v, c)`, the sum `∑ k, x (v, k) * w (c, k)` of the arrays the region found.
-/
import proofs.«119294_j16020228014933_2_alg».proof.Proof.Gen.KernelIdeal.Frame
import proofs.«119294_j16020228014933_2_alg».proof.Proof.LibMatmulSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

/-- Rows of `x` against rows of `w`: entry `(v, c)` is `∑ k, x (v, k) * w (c, k)`. -/
def rowsDot (x : FVec Ideal S50000x128 .f32) (w : FVec Ideal S40x128 .f32) : FVec Ideal S50000x40 .f32 :=
  fun i => ∑ k : Fin 128, x (ix2 (i 0) k) * w (ix2 (i 1) k)

/-! ## The product's dimension record: which coordinate of each operand comes from where -/

theorem lhs_row (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide),
    dif_pos (show (0 : Fin S5000x128.rank) ∈ dot_S5000x128_S128x40_S5000x40_1_0_0_1_n_n.lhsNonContracting by decide)]
  rfl
theorem lhs_col (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
theorem rhs_row (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
theorem rhs_col (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide),
    dif_pos (show (1 : Fin S128x40.rank) ∈ dot_S5000x128_S128x40_S5000x40_1_0_0_1_n_n.rhsNonContracting by decide)]
  rfl

/-! ## The body's arithmetic at an entry -/

/-- The transposed weights at `(k, c)` are the weights at `(c, k)`. -/
theorem transposed_apply (w : FVec Ideal S40x128 .bf16) (k : Fin 128) (c : Fin 40) :
    transpose S128x40 [1, 0] w transposes_S40x128_p1_0_S128x40 (ix2 k c) = w (ix2 c k) :=
  transpose_apply [1, 0] w transposes_S40x128_p1_0_S128x40 (ix2 k c) (ix2 c k) (fun b => match b with
    | ⟨0, _⟩ => rfl
    | ⟨1, _⟩ => rfl)

/-- Entry `(p, c)` of the block the body stores: the row `p` of the loaded features against the row `c` of the
    loaded weights. -/
theorem pay_apply (x0 : Vec Ideal S5000x128 .f32) (x1 : Vec Ideal S40x128 .f32) (p : Fin 5000) (c : Fin 40) :
    k0_pay1 (F := Ideal) x0 x1 (ix2 p c) = ∑ k : Fin 128, x0 (ix2 p k) * x1 (ix2 c k) := by
  unfold k0_pay1
  refine (Cert.GraphConv.matmul_zero_sum dot_S5000x128_S128x40_S5000x40_1_0_0_1_n_n none rfl rfl
    lhs_row lhs_col rhs_row rhs_col _ _ (ix2 p c)).trans ?_
  refine Finset.sum_congr rfl fun k _ => ?_
  exact congrArg (fun z => x0 (ix2 p k) * z) (transposed_apply x1 k c)

/-! ## From the blocks to the array -/

theorem origin : (![0, 0] : Fin 2 → Nat) = fun _ => 0 := funext fun a => by fin_cases a <;> rfl

/-- The printed index maps over the grid: the feature window and the output window sit on the same row block, the
    weight window always on block 0. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `rowsDot` of the two arrays as the region finds them. -/
theorem flushed_eq (c : Dev nD) (t : Fin cfg0.N) :
    (dat0 (F := Ideal) V c).flushed 2 t
      = ((cfg0.win 2).blk t).view.read (Elt Ideal) (rowsDot (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x128) origin, View.ld_unit_zero (S := S40x128) origin]
  obtain ⟨e0, e1, e2, e3, e4, e5⟩ := idx_facts t
  funext j
  obtain ⟨p, q, rfl⟩ : ∃ (p : Fin 5000) (q : Fin 40), j = ix2 p q := ⟨j 0, j 1, eq_ix2 j⟩
  refine (pay_apply (iblk0 V c 0 t) (iblk0 V c 1 t) p q).trans ?_
  show _ = rowsDot (V c main_arg0) (V c main_arg2) (((cfg0.win 2).blk t).view.emb (ix2 p q))
  unfold rowsDot
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 128 + 1 * k.val = k.val
      omega
  have hw : iblk0 V c 1 t (ix2 q k)
      = V c main_arg2 (ix2 ((((cfg0.win 2).blk t).view.emb (ix2 p q)) 1) k) := by
    show V c main_arg2 (((cfg0.win 1).blk t).view.emb (ix2 q k)) = _
    refine congrArg (V c main_arg2) (funext fun a => Fin.ext ?_)
    match a with
    | ⟨0, _⟩ =>
      show win0_1.index t (0 : Fin 2) * 40 + 1 * q.val = win0_2.index t (1 : Fin 2) * 40 + 1 * q.val
      omega
    | ⟨1, _⟩ =>
      show win0_1.index t (1 : Fin 2) * 128 + 1 * k.val = k.val
      omega
  rw [hx, hw]

/-- An index of the output array is in point `t`'s block iff each coordinate is in the block's range on its axis. -/
theorem mem_blk (t : Fin cfg0.N) (i : S50000x40.Idx) :
    i ∈ ((cfg0.win 2).blk t).view.set ↔ ∀ a : Fin 2, win0_2.index t a * S5000x40.size a ≤ (i a).val
      ∧ (i a).val < win0_2.index t a * S5000x40.size a + S5000x40.size a := by
  show i ∈ ((View.whole main_v17).slice (win0_2.rect t)).set ↔ _
  rw [View.set_slice_whole, Rect.mem_set_unit]
  exact Iff.rfl

/-- Every index of the output array is in the block of the point its row falls in. -/
theorem cover (i : S50000x40.Idx) :
    ∃ t : Fin cfg0.N, (cfg0.win 2).flush t = true ∧ i ∈ ((cfg0.win 2).blk t).view.set := by
  have hi0 : (i 0).val < 50000 := (i 0).isLt
  have hi1 : (i 1).val < 40 := (i 1).isLt
  refine ⟨⟨(i 0).val / 5000, by show (i 0).val / 5000 < 10; omega⟩, flush0_2 _, ?_⟩
  rw [mem_blk]
  obtain ⟨e0, e1, e2, e3, e4, e5⟩ := idx_facts ⟨(i 0).val / 5000, by show (i 0).val / 5000 < 10; omega⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 40 ≤ (i 1).val ∧ (i 1).val < win0_2.index _ (1 : Fin 2) * 40 + 40
    rw [e5]
    omega

/-- THE ARRAY after the region: the rows of the features against the rows of the weights, as the region found them. -/
theorem array_eq (c : Dev nD) :
    (dat0 (F := Ideal) V c).arrAt 2 cfg0.N = rowsDot (V c main_arg0) (V c main_arg2) :=
  (dat0 (F := Ideal) V c).arrAt_eq_of_cover 2 (rowsDot (V c main_arg0) (V c main_arg2))
    (fun t _ => flushed_eq V c t) cover

end Cert.KernelIdeal.Region0

end
-- ==== Proof.LogSoftmaxSpec.lean ====
/-
  The log-softmax of one row of forty extended reals, written with exactly the scalar operations the ideal
  values give a program (subtraction, the interpreted exponential and logarithm, the maximum, the finite sum).

  For a row `l`, with `M` the maximum of `l` taken from `-∞`:

      logSoftmaxRow l c = (l c - M) - log (∑ c', exp (l c' - M)).

  Nothing analytic is claimed of it: the two programs that compute a row's log-softmax are each read, at an
  index, as this one function of the row they start from, and so agree wherever their rows agree.
-/
import Idealize.ShloMosaic.PureOps.Ideal

noncomputable section

namespace Cert.Lsm

open Idealize.ShloMosaic

/-- The bit pattern of the single-precision `-∞` denotes the least extended real. -/
theorem ofBits_negInf : Ideal.ofBits .f32 0xFF800000#32 = (⊥ : EReal) := by
  simp [Ideal.ofBits, Ideal.ieee]

/-- The bit pattern of the single-precision zero denotes `0`. -/
theorem ofBits_zero : Ideal.ofBits .f32 0x00000000#32 = (0 : EReal) := by
  simp [Ideal.ofBits, Ideal.ieee]

/-- The maximum of a row, from `-∞`: the fold of `max` over the forty columns, in any order. -/
def rowMax (l : Fin 40 → EReal) : EReal :=
  (Finset.univ : Finset (Fin 40)).fold max ⊥ l

/-- The log-softmax of the row `l` at column `c`: the entry less the row's maximum, less the logarithm of the
    sum of the exponentials of the entries less the maximum. -/
def logSoftmaxRow (l : Fin 40 → EReal) (c : Fin 40) : EReal :=
  (l c - rowMax l) - Ideal.log (∑ c' : Fin 40, Ideal.exp (l c' - rowMax l))

/-- The maximum of `-∞` and the row's maximum is the row's maximum. -/
theorem max_bot_rowMax (l : Fin 40 → EReal) : max ⊥ (rowMax l) = rowMax l :=
  max_eq_right bot_le

/-- The row's maximum from the pattern of `-∞`, as a reduction states its starting value. -/
theorem fold_max_ofBits (l : Fin 40 → EReal) :
    (Finset.univ : Finset (Fin 40)).fold max (Ideal.ofBits .f32 0xFF800000#32) l = rowMax l := by
  rw [ofBits_negInf]; rfl

end Cert.Lsm

end
-- ==== Proof.LibKeepdims.lean ====
/-
  General lemmas, independent of any program: the keep-dimensions layout operations read at an index, and
  reductions along one axis of a matrix read at an index, at the ideal values.

  * a vector `[a]` cast to a column `[a, 1]` reads, at `(i, 0)`, the vector at `i`;
  * a column `[a, 1]` broadcast to `[a, b]` reads, at `(i, j)`, the column at `(i, 0)`;
  * a minimum reduction along one axis is the fold of `min`, from the starting value, over that axis's coordinates
    (for a kernel's vector reduction and for the host's `reduce` alike);
  * a sum along either axis of a matrix, at a result index, is the `Fin`-indexed sum over the reduced coordinate.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A minimum reduction of a vector along ONE axis, read at the ideal values: the fold of `min` from the accumulator's
    value over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

section Matrix
variable {a b : ℕ} {φ : FTy}

/-- The minimum along the rows of a matrix: at `p`, the fold over the columns `q` of the entry `(p, q)`. -/
theorem min_axis1_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) (fun q => src (ix2 p q)) := by
  refine (multiReduction_minimumf_single src acc h hφ hacc (ix1 p)).trans ?_
  refine Finset.fold_congr fun q _ => ?_
  exact congrArg src (funext fun d => Fin.ext (by match d with | ⟨0, _⟩ => rfl | ⟨1, _⟩ => rfl))

/-- The minimum down the columns of a matrix: at `q`, the fold over the rows `p` of the entry `(p, q)`. -/
theorem min_axis0_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) (fun p => src (ix2 p q)) := by
  refine (multiReduction_minimumf_single src acc h hφ hacc (ix1 q)).trans ?_
  refine Finset.fold_congr fun p _ => ?_
  exact congrArg src (funext fun d => Fin.ext (by match d with | ⟨0, _⟩ => rfl | ⟨1, _⟩ => rfl))

/-- The sum down the columns of a matrix: at `q`, the sum over the rows `p` of the entry `(p, q)`. -/
theorem add_axis0_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ p : Fin a, src (ix2 p q) := by
  refine (Ideal.multiReduction_add_single src acc h hφ hacc (ix1 q)).trans ?_
  refine Finset.sum_congr rfl fun p _ => ?_
  exact congrArg src (funext fun d => Fin.ext (by match d with | ⟨0, _⟩ => rfl | ⟨1, _⟩ => rfl))

/-- The sum along the rows of a matrix: at `p`, the sum over the columns `q` of the entry `(p, q)`. -/
theorem add_axis1_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ q : Fin b, src (ix2 p q) := by
  refine (Ideal.multiReduction_add_single src acc h hφ hacc (ix1 p)).trans ?_
  refine Finset.sum_congr rfl fun q _ => ?_
  exact congrArg src (funext fun d => Fin.ext (by match d with | ⟨0, _⟩ => rfl | ⟨1, _⟩ => rfl))

end Matrix

end Cert.LibKeepdims

end
-- ==== Proof.EpilogueKernel.lean ====
/-
  The second kernel's arithmetic read at an index: the value it stores at row `p`, column `c` of its block is the row
  function `Cert.Lsm.logSoftmaxRow` of the row `p` of the biased logits `x0 (p, ·) + x1 (0, ·)`.

  The body adds the one-row bias to every row, takes each row's maximum from `-∞`, subtracts it, exponentiates, sums
  each row from `0`, takes the logarithm and subtracts it. The pointwise operations read at an index by definition;
  each layout operation (a cast of a vector to a column, a column or a row broadcast to the matrix) and each of the
  two row reductions is read at an index by one lemma.
-/
import proofs.«119294_j16020228014933_2_alg».proof.Proof.Gen.KernelIdeal.Skeleton
import proofs.«119294_j16020228014933_2_alg».proof.Proof.LogSoftmaxSpec
import proofs.«119294_j16020228014933_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

namespace Cert.EpilogueKernel

open Idealize.ShloMosaic Idealize.ShloMosaic.ValueIdx Cert.KernelIdeal

/-- The maximum along the rows of a matrix, at the ideal values: at `p`, the fold of `max` from the starting value
    over the columns `q` of the entry `(p, q)`. -/
theorem max_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun q => src (ix2 p q)) := by
  refine (Ideal.multiReduction_maximumf_single src acc h hφ hacc (ix1 p)).trans ?_
  refine Finset.fold_congr fun q _ => ?_
  exact congrArg src (funext fun d => Fin.ext (by match d with | ⟨0, _⟩ => rfl | ⟨1, _⟩ => rfl))

/-- The elementwise exponential and logarithm of a vector, read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The biased logits at `(p, k)`: the block's entry plus the bias's entry of that column. The casts to the same
    shape are the identity, and the one-row bias broadcast down the rows reads its column. -/
theorem bias_apply (x0 : FVec Ideal S5000x40 .f32) (x1 : FVec Ideal S1x40 .f32) (h1 : S5000x40.ShapeCasts S5000x40)
    (h2 : S1x40.ShapeCasts S1x40) (h3 : S1x40.Broadcasts S5000x40) (p : Fin 5000) (k : Fin 40) :
    addf (shapeCast S5000x40 x0 h1) (broadcastTo S5000x40 (shapeCast S1x40 (shapeCast S1x40 x1 h2) h2) h3) (ix2 p k)
      = x0 (ix2 p k) + x1 (ix2 (0 : Fin 1) k) := by
  rw [shapeCast_self, shapeCast_self, shapeCast_self, addf_apply]
  exact congrArg (x0 (ix2 p k) + ·) (broadcastTo_1b_ab_apply x1 h3 p k)

/-- The log-softmax of a `[5000, 40]` matrix `z` as the body computes it, at `(p, c)`: the row function of row `p`. -/
theorem logSoftmax_apply (z : FVec Ideal S5000x40 .f32) (hr : S5000x40.Reduces [1] S5000) (hsc : S5000.ShapeCasts S5000x1)
    (hb : S5000x1.Broadcasts S5000x40) (hφ : FKind.Formats .f32)
    (hmax : (0xFF800000#32 : BitVec 32) = FKind.maximumf.neutral .f32 hφ)
    (hadd : (0x00000000#32 : BitVec 32) = FKind.add.neutral .f32 hφ) (p : Fin 5000) (c : Fin 40) :
    subf (subf z (broadcastTo S5000x40 (shapeCast S5000x1 (multiReduction (F := Ideal) .maximumf [1] S5000 z 0xFF800000#32 hr hφ hmax) hsc) hb))
        (broadcastTo S5000x40 (log (shapeCast S5000x1 (multiReduction (F := Ideal) .add [1] S5000
          (exp (subf z (broadcastTo S5000x40 (shapeCast S5000x1 (multiReduction (F := Ideal) .maximumf [1] S5000 z 0xFF800000#32 hr hφ hmax) hsc) hb)))
          0x00000000#32 hr hφ hadd) hsc)) hb) (ix2 p c)
      = Cert.Lsm.logSoftmaxRow (fun c' => z (ix2 p c')) c := by
  -- the row maximum, cast to a column and broadcast along the row, reads the row's maximum at every column
  have hM : ∀ k : Fin 40,
      broadcastTo S5000x40 (shapeCast S5000x1 (multiReduction (F := Ideal) .maximumf [1] S5000 z 0xFF800000#32 hr hφ hmax) hsc) hb (ix2 p k)
        = Cert.Lsm.rowMax (fun c' => z (ix2 p c')) := by
    intro k
    refine (Cert.LibKeepdims.broadcastTo_a1_ab_apply _ hb p k).trans ?_
    refine (Cert.LibKeepdims.shapeCast_a_a1_apply _ hsc p (0 : Fin 1)).trans ?_
    refine (max_axis1_apply z _ hr hφ hmax p).trans ?_
    exact Cert.Lsm.fold_max_ofBits _
  generalize broadcastTo S5000x40 (shapeCast S5000x1 (multiReduction (F := Ideal) .maximumf [1] S5000 z 0xFF800000#32 hr hφ hmax) hsc) hb = m at hM ⊢
  unfold Cert.Lsm.logSoftmaxRow
  rw [subf_apply, subf_apply, hM c]
  refine congrArg (z (ix2 p c) - Cert.Lsm.rowMax (fun c' => z (ix2 p c')) - ·) ?_
  refine (Cert.LibKeepdims.broadcastTo_a1_ab_apply _ hb p c).trans ?_
  rw [log_apply]
  refine congrArg Ideal.log ?_
  refine (Cert.LibKeepdims.shapeCast_a_a1_apply _ hsc p (0 : Fin 1)).trans ?_
  refine (Cert.LibKeepdims.add_axis1_apply _ _ hr hφ hadd p).trans ?_
  refine Finset.sum_congr rfl fun k _ => ?_
  rw [exp_apply, subf_apply, hM k]

/-- The second kernel's stored value at `(p, c)` is the log-softmax row function of the biased logits' row `p`. -/
theorem k1_pay1_apply (x0 : Vec Ideal S5000x40 .f32) (x1 : Vec Ideal S1x40 .f32) (p : Fin 5000) (c : Fin 40) :
    Cert.KernelIdeal.Gen.k1_pay1 (F := Ideal) x0 x1 (ix2 p c)
      = Cert.Lsm.logSoftmaxRow (fun c' => x0 (ix2 p c') + x1 (ix2 (0 : Fin 1) c')) c := by
  unfold Cert.KernelIdeal.Gen.k1_pay1
  refine (logSoftmax_apply _ _ _ _ _ _ _ p c).trans ?_
  exact congrArg (fun l => Cert.Lsm.logSoftmaxRow l c) (funext fun k => bias_apply x0 x1 _ _ _ p k)

end Cert.EpilogueKernel

end
-- ==== Proof.Region1Value.lean ====
/-
  The second region: bias and log-softmax, block by block.

  The grid has ten points; point `t` loads rows `5000 t … 5000 t + 4999` of the propagated features (all 40 columns)
  and the bias as a 1-by-40 row, and stores, row by row, the log-softmax of the row plus the bias. Each stored row depends
  only on its own input row and the bias, and the ten row blocks tile the 50000 rows, so after the region the output
  array holds at every `(v, c)` the log-softmax, at column `c`, of row `v` of the array the region found plus the
  bias.
-/
import proofs.«119294_j16020228014933_2_alg».proof.Proof.Gen.KernelIdeal.Frame
import proofs.«119294_j16020228014933_2_alg».proof.Proof.EpilogueKernel
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)

/-- Row by row: the log-softmax of the row of `h` plus the bias row `b`. -/
def biasLogSoftmax (h : FVec Ideal S50000x40 .f32) (b : FVec Ideal S1x40 .f32) : FVec Ideal S50000x40 .f32 :=
  fun i => Cert.Lsm.logSoftmaxRow (fun c' : Fin 40 => h (ix2 (i 0) c') + b (ix2 (0 : Fin 1) c')) (i 1)

theorem origin : (![0, 0] : Fin 2 → Nat) = fun _ => 0 := funext fun a => by fin_cases a <;> rfl

/-- The printed index maps over the grid: the input window and the output window sit on the same row block, the bias
    window always on block 0. -/
theorem idx_facts : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is block `t` of `biasLogSoftmax` of the two arrays as the region finds them. -/
theorem flushed_eq (c : Dev nD) (t : Fin cfg1.N) :
    (dat1 (F := Ideal) V c).flushed 2 t
      = ((cfg1.win 2).blk t).view.read (Elt Ideal) (biasLogSoftmax (V c main_v59) (V c main_v60)) := by
  show (cfg1.win 2).cut (grid1.coords t) ((dat1 (F := Ideal) V c).after 2 t) = _
  rw [after1_2]
  unfold out1_2
  rw [View.canon_unit_zero origin]
  simp only [View.ld_unit_zero (S := S5000x40) origin, View.ld_unit_zero (S := S1x40) origin]
  obtain ⟨e0, e1, e2, e3, e4, e5⟩ := idx_facts t
  funext j
  obtain ⟨p, q, rfl⟩ : ∃ (p : Fin 5000) (q : Fin 40), j = ix2 p q := ⟨j 0, j 1, eq_ix2 j⟩
  refine (Cert.EpilogueKernel.k1_pay1_apply (iblk1 V c 0 t) (iblk1 V c 1 t) p q).trans ?_
  show _ = biasLogSoftmax (V c main_v59) (V c main_v60) (((cfg1.win 2).blk t).view.emb (ix2 p q))
  unfold biasLogSoftmax
  have hq : (((cfg1.win 2).blk t).view.emb (ix2 p q)) 1 = q :=
    Fin.ext (by show win1_2.index t (1 : Fin 2) * 40 + 1 * q.val = q.val; omega)
  have hx : ∀ c' : Fin 40, iblk1 V c 0 t (ix2 p c')
      = V c main_v59 (ix2 ((((cfg1.win 2).blk t).view.emb (ix2 p q)) 0) c') := by
    intro c'
    show V c main_v59 (((cfg1.win 0).blk t).view.emb (ix2 p c')) = _
    refine congrArg (V c main_v59) (funext fun a => Fin.ext ?_)
    match a with
    | ⟨0, _⟩ =>
      show win1_0.index t (0 : Fin 2) * 5000 + 1 * p.val = win1_2.index t (0 : Fin 2) * 5000 + 1 * p.val
      omega
    | ⟨1, _⟩ =>
      show win1_0.index t (1 : Fin 2) * 40 + 1 * c'.val = c'.val
      omega
  have hb : ∀ c' : Fin 40, iblk1 V c 1 t (ix2 (0 : Fin 1) c') = V c main_v60 (ix2 (0 : Fin 1) c') := by
    intro c'
    show V c main_v60 (((cfg1.win 1).blk t).view.emb (ix2 (0 : Fin 1) c')) = _
    refine congrArg (V c main_v60) (funext fun a => Fin.ext ?_)
    match a with
    | ⟨0, _⟩ =>
      show win1_1.index t (0 : Fin 2) * 1 + 1 * 0 = 0
      omega
    | ⟨1, _⟩ =>
      show win1_1.index t (1 : Fin 2) * 40 + 1 * c'.val = c'.val
      omega
  simp only [hx, hb]
  rw [hq]

/-- An index of the output array is in point `t`'s block iff each coordinate is in the block's range on its axis. -/
theorem mem_blk (t : Fin cfg1.N) (i : S50000x40.Idx) :
    i ∈ ((cfg1.win 2).blk t).view.set ↔ ∀ a : Fin 2, win1_2.index t a * S5000x40.size a ≤ (i a).val
      ∧ (i a).val < win1_2.index t a * S5000x40.size a + S5000x40.size a := by
  show i ∈ ((View.whole main_v61).slice (win1_2.rect t)).set ↔ _
  rw [View.set_slice_whole, Rect.mem_set_unit]
  exact Iff.rfl

/-- Every index of the output array is in the block of the point its row falls in. -/
theorem cover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  refine ⟨⟨(i 0).val / 5000, by show (i 0).val / 5000 < 10; omega⟩, flush1_2 _, ?_⟩
  rw [mem_blk]
  obtain ⟨e0, e1, e2, e3, e4, e5⟩ := idx_facts ⟨(i 0).val / 5000, by show (i 0).val / 5000 < 10; omega⟩
  intro a
  match a with
  | ⟨0, _⟩ =>
    show win1_2.index _ (0 : Fin 2) * 5000 ≤ (i 0).val ∧ (i 0).val < win1_2.index _ (0 : Fin 2) * 5000 + 5000
    rw [e4]
    show (i 0).val / 5000 * 5000 ≤ (i 0).val ∧ (i 0).val < (i 0).val / 5000 * 5000 + 5000
    omega
  | ⟨1, _⟩ =>
    show win1_2.index _ (1 : Fin 2) * 40 ≤ (i 1).val ∧ (i 1).val < win1_2.index _ (1 : Fin 2) * 40 + 40
    rw [e5]
    omega

/-- THE ARRAY after the region: row by row, the log-softmax of the propagated features plus the bias, as the region
    found them. -/
theorem array_eq (c : Dev nD) :
    (dat1 (F := Ideal) V c).arrAt 2 cfg1.N = biasLogSoftmax (V c main_v59) (V c main_v60) :=
  (dat1 (F := Ideal) V c).arrAt_eq_of_cover 2 (biasLogSoftmax (V c main_v59) (V c main_v60))
    (fun t _ => flushed_eq V c t) cover

end Cert.KernelIdeal.Region1

end
-- ==== Proof.KernelValue.lean ====
/-
  The idealized kernel's result as one function of its four argument arrays.

  The result buffer is the second region's output array. That region leaves in it the row-wise log-softmax of its input
  array plus the bias row; its input array is three propagation steps applied to the first region's output array; and the
  first region leaves there the rows of the node features against the rows of the weights. Every other buffer the two
  regions read was built by the host from the edge list alone. Chaining these gives the result as a function of the
  launched arrays.
-/
import proofs.«119294_j16020228014933_2_alg».proof.Proof.KernelHost
import proofs.«119294_j16020228014933_2_alg».proof.Proof.Region0Value
import proofs.«119294_j16020228014933_2_alg».proof.Proof.Region1Value

set_option maxRecDepth 16384

noncomputable section

namespace Cert.KernelIdeal.ResultValue

open Cert.KernelIdeal Cert.KernelIdeal.Gen Cert.KernelIdeal.HostSide
open Idealize.ShloMosaic Idealize.ShloMosaic.TcCoe Idealize.SL.Sem

/-- The inverse square roots of the degrees as the column the steps scale by. -/
def scaleCol (x1 : IVec S2x800000 32) : FVec Ideal S50000x1 .f32 :=
  broadcastInDim S50000x1 ![0] bcast_S50000_S50000x1_0 (invSqrtDeg (F := Ideal) x1)

/-- Three propagation steps on the projected features. -/
def propagated (x0 : FVec Ideal S50000x128 .f32) (x1 : IVec S2x800000 32) (x2 : FVec Ideal S40x128 .f32) : FVec Ideal S50000x40 .f32 :=
  nodeHop (scaleCol x1) (rowIds x1) (colIds x1)
    (nodeHop (scaleCol x1) (rowIds x1) (colIds x1)
      (nodeHop (scaleCol x1) (rowIds x1) (colIds x1) (Region0.rowsDot x0 x2)))

/-- The result: row by row, the log-softmax of the propagated projected features plus the bias. -/
def result (x0 : FVec Ideal S50000x128 .f32) (x1 : IVec S2x800000 32) (x2 : FVec Ideal S40x128 .f32) (x3 : FVec Ideal S40 .f32) :
    FVec Ideal S50000x40 .f32 :=
  Region1.biasLogSoftmax (propagated x0 x1 x2) (shapeCast S1x40 x3 shapeCasts_S40_S1x40)

variable (m : (ℓ : Loc nD τ sig) → Buf (Elt Ideal) ℓ) (ρ : Dev nD → PrngReg)

/-- The first region's output array, after it: the projected features of the launched arrays. -/
theorem W4_projected (c : Dev nD) : W4 m ρ c (Proc.devRef .tc main_v17)
    = Region0.rowsDot (m ((c : Thread nD τ).loc main_arg0)) (m ((c : Thread nD τ).loc main_arg2)) := by
  refine (W4_arr m ρ c 2).trans ((Region0.array_eq (V3 m ρ) c).trans ?_)
  rw [V3_features, V3_weights]

/-- The result buffer at the end of the run is `result` of the launched arrays. -/
theorem W6_result (c : Dev nD) : W6 m ρ c (Proc.devRef .tc main_v61)
    = result (m ((c : Thread nD τ).loc main_arg0)) (m ((c : Thread nD τ).loc main_arg1))
        (m ((c : Thread nD τ).loc main_arg2)) (m ((c : Thread nD τ).loc main_arg3)) := by
  refine (W6_arr m ρ c 2).trans ((Region1.array_eq (V5 m ρ) c).trans ?_)
  rw [V5_propagated, V5_bias, W4_scale, W3_scale, W4_rowIds, W3_rowIds, W4_colIds, W3_colIds, W4_bias, W4_projected]
  rfl

end Cert.KernelIdeal.ResultValue

end
-- ==== Proof.SgcSpec.lean ====
/-
  Simplified graph convolution, as two arrangements of the same arithmetic on the extended reals.

  Nodes `N`, edges `E` (the graph's edges followed by one self-loop per node), feature columns `D`, classes `C`.
  An edge `e` is summed into node `v` when `seg e v` holds (its target id, read as an integer, is `v`); it reads the
  features of its source node `r e` (the source id wrapped and clamped into range), and `q e` is its target id wrapped
  and clamped the same way, so that `seg e v` implies `q e = v`. `d` is the vector of inverse square roots of the
  in-degrees.

  One propagation step is `h ↦ D^{-1/2} (A + I) D^{-1/2} h`. The first arrangement weighs each edge by
  `d (r e) * d (q e)` and sums the weighted source rows; the second scales the rows by `d` first, sums the source rows
  unweighted, and scales the sums by `d` again. A projection `h ↦ h Wᵀ` acts on the feature axis only, so it commutes with
  propagation: projecting after three steps of the first arrangement is three steps of the second arrangement applied to
  the projection. Moving the factors across the finite sums is distributivity, which on the extended reals needs every
  quantity to be a real number.
-/
import Mathlib.Data.EReal.Operations
import Mathlib.Algebra.BigOperators.Group.Finset.Basic

noncomputable section

open scoped BigOperators

namespace Cert.Sgc

variable {N E D C : Type} [Fintype N] [Fintype E] [Fintype D] [Fintype C]

/-- One propagation step with per-edge weights `d (r e) * d (q e)`: node `v`'s new feature `j` is the sum, over the
    edges summed into `v`, of the weight times the source node's feature `j`. -/
def hopEdge (seg : E → N → Prop) [∀ e v, Decidable (seg e v)] (r q : E → N) (d : N → EReal)
    (h : N → D → EReal) : N → D → EReal :=
  fun v j => ∑ e, if seg e v then (d (r e) * d (q e)) * h (r e) j else 0

/-- One propagation step with the weights moved to the nodes: scale row `u` by `d u`, sum the source rows of the
    edges summed into `v`, scale the sum by `d v`. -/
def hopNode (seg : E → N → Prop) [∀ e v, Decidable (seg e v)] (r : E → N) (d : N → EReal)
    (h : N → C → EReal) : N → C → EReal :=
  fun v c => d v * ∑ e, if seg e v then d (r e) * h (r e) c else 0

/-- The projection `h Wᵀ`: entry `(v, c)` is the sum over the feature columns `j` of `h v j * w c j`. -/
def proj (h : N → D → EReal) (w : C → D → EReal) : N → C → EReal :=
  fun v c => ∑ j, h v j * w c j

end Cert.Sgc

end
-- ==== Proof.LibRowScatter.lean ====
/-
Row gather and row scatter-add of a matrix, read at an index.

`x[idx]` on the rows of a matrix `x : [N, C]` at an integer vector `idx : [E]` is a `stablehlo.gather` with offset_dims
`[1]`, collapsed_slice_dims `[0]`, start_index_map `[0]`, index_vector_dim 1 and slice_sizes `[1, C]` over the indices as
`[E, 1]`; a segment sum of `data : [E, C]` by `ids : [E]` into `N` rows is a `stablehlo.scatter` with an add body,
update_window_dims `[1]`, inserted_window_dims `[0]`, scatter_dims_to_operand_dims `[0]` and index_vector_dim 1 over the
ids as `[E, 1]`. This file gives each of the two, at the extended reals for the scatter, in closed form at an index.
-/
import Idealize.ShloMosaic.Lib.ValueIdx
import Idealize.ShloMosaic.PureOps.Ideal

noncomputable section

open scoped BigOperators

namespace Idealize.ShloMosaic.RowScatter

open Idealize.ShloMosaic Idealize.ShloMosaic.ValueIdx

/-! ## Row gather -/

section Gather
variable {α : Type}

/-- The dimension numbers of a row gather for an operand `[N, C]`, start indices `[E, 1]` and result `[E, C]`: the
    row axis is collapsed and indexed, the column axis is the one offset axis, a slice is one whole row. Their
    conditions `wf` are a parameter, so that any record with these fields is an instance whatever its proof. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into `[0, N − 1]`, and
    at the result's own column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    -- the row axis: collapsed, so no offset; not a batching axis; its start is the clamped index
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: not indexed, so its start is 0; not a batching axis; its offset is the result's column
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hst : (rowGatherDims N E C wf).start (ix2 e c) idx 1 = 0 := by
      unfold GatherDims.start
      rw [dif_neg (show ¬ (1 : Fin 2) ∈ (rowGatherDims N E C wf).startIndexMap from
        fun h => absurd (List.mem_singleton.mp h) (show ¬ (1 : Fin 2) = 0 by decide))]
    have hk : (1 : Fin 2) ∈ (rowGatherDims N E C wf).sKept :=
      (GatherDims.mem_sKept _ _).mpr ⟨fun h => absurd (List.mem_singleton.mp h) (show ¬ (1 : Fin 2) = 0 by decide), List.not_mem_nil⟩
    have hoff : (rowGatherDims N E C wf).offCoord (ix2 e c) 1 = c.val := by
      unfold GatherDims.offCoord
      rw [dif_pos hk]
      rfl
    rw [hst, hoff]
    simp only [Nat.add_zero, Nat.zero_add]

end Gather

/-! ## Row scatter-add -/

section Scatter

/-- The dimension numbers of a row scatter for an operand `[N, C]`, scatter indices `[E, 1]` and updates `[E, C]`: the
    row axis is the inserted, indexed one, the column axis is the one window axis, an update is one whole row. Their
    conditions `wf` are a parameter, so that any record with these fields is an instance whatever its proof. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update row's id `idx[j₀, 0]`, read signed and not clamped. -/
theorem rowScatter_start_row (idx : IVec ⟨2, ![E, 1]⟩ w) (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no scatter index names, the window starts at 0. -/
theorem rowScatter_start_col (idx : IVec ⟨2, ![E, 1]⟩ w) (j : (⟨2, ![E, C]⟩ : Shape).Idx) :
    (rowScatterDims N E C wf).start j idx 1 = 0 := by
  unfold ScatterDims.start
  rw [dif_neg (show ¬ (1 : Fin 2) ∈ (rowScatterDims N E C wf).scatterDimsToOperandDims from
    fun h => absurd (List.mem_singleton.mp h) (show ¬ (1 : Fin 2) = 0 by decide))]

/-- The row axis is inserted: the window has no extent there. -/
theorem rowScatter_window_row (j : (⟨2, ![E, C]⟩ : Shape).Idx) : (rowScatterDims N E C wf).window j 0 = 0 := by
  unfold ScatterDims.window
  rw [dif_neg]
  intro h
  have h' : (0 : Fin 2) ∉ ([0] : List (Fin 2)) := by
    simpa [ScatterDims.sKept, Shape.kept, List.mem_filter] using h
  exact h' (List.mem_singleton.mpr rfl)

/-- On the column axis the window coordinate is the update's own column. -/
theorem rowScatter_window_col (j : (⟨2, ![E, C]⟩ : Shape).Idx) : (rowScatterDims N E C wf).window j 1 = (j 1).val := by
  unfold ScatterDims.window
  have hk : (1 : Fin 2) ∈ (rowScatterDims N E C wf).sKept := by
    simp [ScatterDims.sKept, Shape.kept, List.mem_filter]
  rw [dif_pos hk]
  rfl

/-- WHERE AN UPDATE ELEMENT LANDS: update `(j₀, j₁)` lands on operand element `(n, c)` exactly when its row's id, read
    signed, is `n` and its column is `c`; an id outside `[0, N)` lands nowhere. -/
theorem rowScatter_resultIdx_iff (idx : IVec ⟨2, ![E, 1]⟩ w) (j : (⟨2, ![E, C]⟩ : Shape).Idx) (n : Fin N) (c : Fin C) :
    (rowScatterDims N E C wf).resultIdx? j idx = some (ix2 n c)
      ↔ (idx (ix2 (j 0) (0 : Fin 1))).toInt = (n.val : Int) ∧ j 1 = c := by
  unfold ScatterDims.resultIdx?
  constructor
  · intro h
    split at h
    · have hf := Option.some.inj h
      have h0 := congrArg Fin.val (congrFun hf 0)
      have h1 := congrArg Fin.val (congrFun hf 1)
      rename_i hall
      have ha0 := hall 0
      have ha1 := hall 1
      simp only [rowScatter_start_row, rowScatter_start_col, rowScatter_window_row, rowScatter_window_col] at h0 h1 ha0 ha1
      refine ⟨?_, Fin.ext ?_⟩
      · change ((idx (ix2 (j 0) (0 : Fin 1))).toInt + ((0 : Nat) : Int)).toNat = n.val at h0
        omega
      · change ((0 : Int) + ((j 1).val : Int)).toNat = c.val at h1
        omega
    · cases h
  · rintro ⟨h0, h1⟩
    have hall : ∀ a : Fin 2, 0 ≤ (rowScatterDims N E C wf).start j idx a + (rowScatterDims N E C wf).window j a
        ∧ (rowScatterDims N E C wf).start j idx a + (rowScatterDims N E C wf).window j a
          < (⟨2, ![N, C]⟩ : Shape).size a := by
      intro a
      match a with
      | ⟨0, _⟩ =>
        show 0 ≤ (rowScatterDims N E C wf).start j idx 0 + (rowScatterDims N E C wf).window j 0
          ∧ (rowScatterDims N E C wf).start j idx 0 + (rowScatterDims N E C wf).window j 0 < (N : Int)
        rw [rowScatter_start_row, rowScatter_window_row, h0]
        have := n.isLt
        omega
      | ⟨1, _⟩ =>
        show 0 ≤ (rowScatterDims N E C wf).start j idx 1 + (rowScatterDims N E C wf).window j 1
          ∧ (rowScatterDims N E C wf).start j idx 1 + (rowScatterDims N E C wf).window j 1 < (C : Int)
        rw [rowScatter_start_col, rowScatter_window_col]
        have := idx2_lt1 j
        omega
    rw [dif_pos hall]
    congr 1
    funext a
    refine Fin.ext ?_
    match a with
    | ⟨0, _⟩ =>
      show ((rowScatterDims N E C wf).start j idx 0 + (rowScatterDims N E C wf).window j 0).toNat = n.val
      rw [rowScatter_start_row, rowScatter_window_row, h0]
      omega
    | ⟨1, _⟩ =>
      show ((rowScatterDims N E C wf).start j idx 1 + (rowScatterDims N E C wf).window j 1).toNat = c.val
      rw [rowScatter_start_col, rowScatter_window_col, ← h1]
      omega

/-- THE ROW SCATTER-ADD READ AT `(n, c)`: the operand element plus the sum, over the update rows `e` whose id
    `idx[e, 0]`, read signed and not clamped, is `n`, of the update at `(e, c)`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatterDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  have hterm : ∀ c' : Fin C,
      (if (rowScatterDims N E C wf).resultIdx? (ix2 e c') idx = some (ix2 n c) then upd (ix2 e c') else 0)
        = if c' = c then (if (idx (ix2 e (0 : Fin 1))).toInt = (n.val : Int) then upd (ix2 e c) else 0) else 0 := by
    intro c'
    have hiff := rowScatter_resultIdx_iff wf idx (ix2 e c') n c
    change _ ↔ (idx (ix2 e (0 : Fin 1))).toInt = (n.val : Int) ∧ c' = c at hiff
    by_cases hc : c' = c
    · subst hc
      rw [if_pos rfl]
      exact if_congr (hiff.trans (and_iff_left rfl)) rfl rfl
    · rw [if_neg hc, if_neg (fun h => hc (hiff.mp h).2)]
  rw [Finset.sum_congr rfl (fun c' _ => hterm c'), Finset.sum_ite_eq' Finset.univ c]
  rw [if_pos (Finset.mem_univ c)]

end Scatter

/-! ## A sum over `Fin (E + E)` in two halves -/

/-- A sum over `Fin (E + E)` is the sum over the first `E` indices plus the sum over the last `E` (Mathlib's
    `Fin.sum_univ_add` at equal halves). -/
theorem sum_fin_add_self {M : Type*} [AddCommMonoid M] (E : Nat) (f : Fin (E + E) → M) :
    ∑ e, f e = ∑ e : Fin E, f (Fin.castAdd E e) + ∑ e : Fin E, f (Fin.natAdd E e) :=
  Fin.sum_univ_add f

end Idealize.ShloMosaic.RowScatter

end
-- ==== Proof.LibGraphHop.lean ====
/-
One graph-propagation step as a host program computes it, read at an entry.

A host program propagates features `h : [N, C]` along `E` edges given as two integer columns `rows, cols : [E, 1]`
(source and target ids): it gathers the source rows `h[rows]`, which reads each id signed and clamps it into
`[0, N − 1]`, and scatter-adds them into `N` zero rows by the target ids, which reads each id signed and drops an id
outside `[0, N)`. The weights enter in one of two ways: per node, by scaling the rows by a column `d : [N, 1]` before the
gather and again after the scatter-add; or per edge, by scaling the gathered rows by a column `nrm : [E, 1]`. This file
gives each of the two at the extended reals in closed form at an entry `(v, c)`: a sum over the edges whose target id is
`v`.
-/
import proofs.«119294_j16020228014933_2_alg».proof.Proof.LibRowScatter
import Idealize.ShloMosaic.Lib.ValueIdx
import Idealize.ShloMosaic.Lib.Pipeline.Value
import Idealize.ShloMosaic.PureOps.Ideal

noncomputable section

open scoped BigOperators

namespace Cert.LibGraphHop

open Idealize.ShloMosaic Idealize.ShloMosaic.ValueIdx Idealize.ShloMosaic.RowScatter

variable {N E C : Nat}

/-- The node an edge reads: its source id, read signed and clamped into `[0, N − 1]`. -/
def srcRow (hN : 0 < N) (rows : IVec ⟨2, ![E, 1]⟩ 32) (e : Fin E) : Fin N :=
  ⟨min (rows (ix2 e (0 : Fin 1))).toInt.toNat (N - 1), by omega⟩

/-- A column `[N, 1]` broadcast along the rows of `[N, C]`, read at `(v, c)`, is the column's entry at `v`. -/
theorem bcast_rows_apply {α : Type}
    (hB : (⟨2, ![N, 1]⟩ : Shape).BroadcastsInDim ⟨2, ![N, C]⟩ (![0, 1] : Fin 2 → Fin 2))
    (d : (⟨2, ![N, 1]⟩ : Shape).Idx → α) (v : Fin N) (c : Fin C) :
    broadcastInDim ⟨2, ![N, C]⟩ ![0, 1] hB d (ix2 v c) = d (ix2 v (0 : Fin 1)) := by
  refine broadcastInDim_apply _ hB d (ix2 v c) (ix2 v (0 : Fin 1)) (fun a => ?_)
  match a with
  | ⟨0, _⟩ =>
    -- the row axis: of extent `N`; when `N = 1` the only row is row 0
    show v.val = if N = 1 then 0 else v.val
    by_cases h1 : N = 1
    · rw [if_pos h1]
      have := v.isLt
      omega
    · rw [if_neg h1]
  | ⟨1, _⟩ =>
    -- the column axis: of extent one, read at 0
    show (0 : Nat) = if (1 : Nat) = 1 then 0 else c.val
    rw [if_pos rfl]

/-- ONE STEP WITH THE WEIGHTS ON THE NODES, READ AT `(v, c)`: scale the rows by `d`, gather the source rows, scatter-add
    them by target id into zero rows, scale by `d` again. The entry is `d v` times the sum, over the edges whose target
    id is `v`, of `d` times `h` at the edge's source node. -/
theorem nodeHop_apply (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hB : (⟨2, ![N, 1]⟩ : Shape).BroadcastsInDim ⟨2, ![N, C]⟩ (![0, 1] : Fin 2 → Fin 2))
    (d : FVec Ideal ⟨2, ![N, 1]⟩ .f32) (rows cols : IVec ⟨2, ![E, 1]⟩ 32)
    (zeros : FVec Ideal ⟨2, ![N, C]⟩ .f32) (hz : ∀ i, zeros i = 0) (h : FVec Ideal ⟨2, ![N, C]⟩ .f32)
    (v : Fin N) (c : Fin C) :
    mulf (broadcastInDim ⟨2, ![N, C]⟩ ![0, 1] hB d)
        (Host.scatterAdd (rowScatterDims N E C swf) zeros cols
          (Host.gather (rowGatherDims N E C gwf) (mulf (broadcastInDim ⟨2, ![N, C]⟩ ![0, 1] hB d) h) rows)) (ix2 v c)
      = d (ix2 v (0 : Fin 1)) * ∑ e : Fin E, if (cols (ix2 e (0 : Fin 1))).toInt = (v.val : Int)
          then d (ix2 (srcRow hN rows e) (0 : Fin 1)) * h (ix2 (srcRow hN rows e) c) else 0 := by
  rw [mulf_apply, bcast_rows_apply]
  show _ * Ideal.hostScatterAdd (rowScatterDims N E C swf) zeros cols _ (ix2 v c) = _
  rw [rowScatterAdd_apply, hz, zero_add]
  congr 1
  refine Finset.sum_congr rfl fun e _ => ?_
  refine if_congr Iff.rfl ?_ rfl
  rw [rowGather_apply hN, mulf_apply, bcast_rows_apply]
  rfl

/-- ONE STEP WITH THE WEIGHTS ON THE EDGES, READ AT `(v, c)`: gather the source rows, scale edge `e`'s row by `nrm e`,
    scatter-add by target id into zero rows. The entry is the sum, over the edges whose target id is `v`, of `nrm e`
    times `h` at the edge's source node. -/
theorem edgeHop_apply (hN : 0 < N)
    (gwf : GatherDims.WF ⟨2, ![N, C]⟩ ⟨2, ![E, 1]⟩ ⟨2, ![E, C]⟩ [1] [0] [] [0] [] 1 ![1, C])
    (swf : ScatterDims.WF ⟨2, ![N, C]⟩ ⟨2, ![E, 1]⟩ ⟨2, ![E, C]⟩ [1] [0] [0] 1)
    (hBe : (⟨2, ![E, 1]⟩ : Shape).BroadcastsInDim ⟨2, ![E, C]⟩ (![0, 1] : Fin 2 → Fin 2))
    (nrm : FVec Ideal ⟨2, ![E, 1]⟩ .f32) (rows cols : IVec ⟨2, ![E, 1]⟩ 32)
    (zeros : FVec Ideal ⟨2, ![N, C]⟩ .f32) (hz : ∀ i, zeros i = 0) (h : FVec Ideal ⟨2, ![N, C]⟩ .f32)
    (v : Fin N) (c : Fin C) :
    Host.scatterAdd (rowScatterDims N E C swf) zeros cols
        (mulf (broadcastInDim ⟨2, ![E, C]⟩ ![0, 1] hBe nrm) (Host.gather (rowGatherDims N E C gwf) h rows)) (ix2 v c)
      = ∑ e : Fin E, if (cols (ix2 e (0 : Fin 1))).toInt = (v.val : Int)
          then nrm (ix2 e (0 : Fin 1)) * h (ix2 (srcRow hN rows e) c) else 0 := by
  show Ideal.hostScatterAdd (rowScatterDims N E C swf) zeros cols _ (ix2 v c) = _
  rw [rowScatterAdd_apply, hz, zero_add]
  refine Finset.sum_congr rfl fun e _ => ?_
  refine if_congr Iff.rfl ?_ rfl
  rw [mulf_apply, bcast_rows_apply, rowGather_apply hN]
  rfl

end Cert.LibGraphHop

end
-- ==== Proof.LibWrapIndex.lean ====
/-
Wrapping a negative index, then reading it as a column: an index that is already in range is left alone.

Indexing an array of `N = 50000` rows by signed 32-bit ids first wraps a negative id: `wrapped := if id < 0 then id + N
else id`, elementwise over `ids : [E]`; the wrapped ids are then read as a column `[E, 1]` and a gather clamps each one
into `[0, N − 1]`. This file says that an id whose signed value is a node number `n < N` passes through all three steps
unchanged: the signed comparison of a non-negative word with 0 is false, so the select keeps the id; the column at
`(e, 0)` is the vector at `e`; and the clamp of `n < N` is `n`.
-/
import Idealize.ShloMosaic.Lib.ValueIdx
import Idealize.ShloMosaic.Lib.Affine
import Idealize.ShloMosaic.Lib.Pipeline.Value
import Idealize.ShloMosaic.PureOps.Ideal

noncomputable section

namespace Cert.LibWrapIndex

open Idealize.ShloMosaic Idealize.ShloMosaic.ValueIdx

/-- THE SCALAR STEP: a word whose signed value is non-negative is not below 0, so "add `k` when negative" keeps it. -/
theorem wrap_word_of_nonneg (a k : BitVec 32) (h : 0 ≤ a.toInt) :
    Scalar.select (IntOp.cmpi .slt a (0#32)) (IntOp.addi a k) a = a := by
  have hc : IntOp.cmpi .slt a (0#32) = 0#1 := by
    apply eq_zero_of_ne_one
    rw [IntOp.cmpi_slt]
    have h0 : (0#32 : BitVec 32).toInt = 0 := by decide
    rw [h0]
    omega
  rw [hc, select_zero]

/-- THE WRAP AT AN INDEX: an id whose signed value is a node number `n < 50000` is left alone by the wrap. -/
theorem wrapped_of_node {E : Nat} (hB0 : (⟨0, ![]⟩ : Shape).BroadcastsInDim ⟨1, ![E]⟩ (![] : Fin 0 → Fin 1))
    (ids : IVec ⟨1, ![E]⟩ 32) (e : Fin E) (n : Nat) (hn : n < 50000) (h : (ids (ix1 e)).toInt = (n : Int)) :
    select (cmpi .slt ids (broadcastInDim ⟨1, ![E]⟩ ![] hB0 (constantI (⟨0, ![]⟩ : Shape) 32 0#32)))
        (addi ids (broadcastInDim ⟨1, ![E]⟩ ![] hB0 (constantI (⟨0, ![]⟩ : Shape) 32 50000#32))) ids (ix1 e)
      = ids (ix1 e) := by
  -- at an index each elementwise operation is the scalar one, and a broadcast scalar constant reads its word
  show Scalar.select (IntOp.cmpi .slt (ids (ix1 e)) (0#32)) (IntOp.addi (ids (ix1 e)) (50000#32)) (ids (ix1 e))
    = ids (ix1 e)
  exact wrap_word_of_nonneg _ _ (by rw [h]; exact Int.natCast_nonneg n)

/-- THE CLAMP: a word whose signed value is a node number `n < 50000` clamps into `[0, 50000 − 1]` to `n`. -/
theorem clamp_of_node (a : BitVec 32) (n : Nat) (hn : n < 50000) (h : a.toInt = (n : Int)) :
    min a.toInt.toNat (50000 - 1) = n := by
  rw [h]
  omega

/-- THE COLUMN: a vector `[E]` read as a column `[E, 1]` has at `(e, 0)` the vector's element `e`. -/
theorem column_apply {E w : Nat}
    (hB1 : (⟨1, ![E]⟩ : Shape).BroadcastsInDim ⟨2, ![E, 1]⟩ (![0] : Fin 1 → Fin 2))
    (ids : IVec ⟨1, ![E]⟩ w) (e : Fin E) :
    broadcastInDim ⟨2, ![E, 1]⟩ ![0] hB1 ids (ix2 e (0 : Fin 1)) = ids (ix1 e) := by
  refine broadcastInDim_apply ![0] hB1 ids (ix2 e (0 : Fin 1)) (ix1 e) fun a => ?_
  obtain rfl : a = 0 := Subsingleton.elim _ _
  show e.val = if E = 1 then 0 else e.val
  split
  · have := e.isLt; omega
  · rfl

end Cert.LibWrapIndex

end
-- ==== Proof.GraphData.lean ====
/-
  The graph the two programs propagate over, and one propagation step of each as the specification's.

  There are 50000 nodes and 850000 edges (the 800000 edges of the edge list followed by one self-loop per node), given
  as two vectors of 32-bit ids. A scatter-add reads an id signed and as it is: edge `e` is summed into node `v` exactly
  when its target id is the integer `v`. A gather wraps a negative id up by the number of nodes and clamps the result into
  range: `node ids e` is the node edge `e` reads through the id vector `ids`. An id that already is a node number is
  left alone by the wrapping and the clamping, so an edge summed into `v` reads node `v` through the target ids.
  With these, one step computed on the host as "scale, gather, scatter-add, scale" is the specification's `hopNode`, and
  one step computed as "gather, weigh each edge, scatter-add" is its `hopEdge`, for feature matrices of any width.
-/
import proofs.«119294_j16020228014933_2_alg».proof.Proof.SgcSpec
import proofs.«119294_j16020228014933_2_alg».proof.Proof.LibGraphHop
import proofs.«119294_j16020228014933_2_alg».proof.Proof.LibWrapIndex
import Idealize.ShloMosaic.Lib.Pipeline.Value

noncomputable section

open scoped BigOperators

namespace Cert.GraphData

open Idealize.ShloMosaic Idealize.ShloMosaic.ValueIdx Idealize.ShloMosaic.RowScatter
open Cert.LibGraphHop Cert.LibWrapIndex

abbrev S0 : Shape := ⟨0, ![]⟩
abbrev SE : Shape := ⟨1, ![850000]⟩
abbrev SE1 : Shape := ⟨2, ![850000, 1]⟩

variable (hB0 : S0.BroadcastsInDim SE (![] : Fin 0 → Fin 1)) (hB1 : SE.BroadcastsInDim SE1 (![0] : Fin 1 → Fin 2))

/-- A vector read as a column: at `(e, 0)` the column holds the vector's entry `e`, whatever the entries are. -/
theorem column_any_apply {α : Type} {E : Nat} (hB : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ ![0] hB x (ix2 e (0 : Fin 1)) = x (ix1 e) := by
  refine broadcastInDim_apply _ hB x _ (ix1 e) ?_
  intro a
  match a with
  | ⟨0, _⟩ =>
    show e.val = if E = 1 then 0 else e.val
    split
    · have := e.isLt; omega
    · rfl

/-- An id vector with its negative ids moved up by the number of nodes. -/
def wrapped (ids : IVec SE 32) : IVec SE 32 :=
  select (cmpi .slt ids (broadcastInDim SE ![] hB0 (constantI S0 32 0#32)))
    (addi ids (broadcastInDim SE ![] hB0 (constantI S0 32 50000#32))) ids

/-- The node edge `e` reads through the id vector `ids`: the wrapped id, clamped into `0 … 49999`. -/
def node (ids : IVec SE 32) (e : Fin 850000) : Fin 50000 :=
  ⟨min ((wrapped hB0 ids) (ix1 e)).toInt.toNat (50000 - 1), by omega⟩

/-- Edge `e` is summed into node `v`: its target id, read signed, is `v`. -/
def seg (cols : IVec SE 32) (e : Fin 850000) (v : Fin 50000) : Prop := (cols (ix1 e)).toInt = (v.val : Int)

instance (cols : IVec SE 32) (e : Fin 850000) (v : Fin 50000) : Decidable (seg cols e v) :=
  inferInstanceAs (Decidable ((cols (ix1 e)).toInt = (v.val : Int)))

/-- An edge summed into `v` reads node `v` through the target ids. -/
theorem node_of_seg (cols : IVec SE 32) (e : Fin 850000) (v : Fin 50000) (h : seg cols e v) : node hB0 cols e = v := by
  apply Fin.ext
  show min ((wrapped hB0 cols) (ix1 e)).toInt.toNat (50000 - 1) = v.val
  unfold wrapped
  rw [wrapped_of_node hB0 cols e v.val v.isLt h]
  exact clamp_of_node _ _ v.isLt h

/-- The row a gather reads through the wrapped ids as a column is `node`. -/
theorem srcRow_eq (ids : IVec SE 32) (e : Fin 850000) :
    srcRow (N := 50000) (by decide) (broadcastInDim SE1 ![0] hB1 (wrapped hB0 ids)) e = node hB0 ids e := by
  apply Fin.ext
  show min ((broadcastInDim SE1 ![0] hB1 (wrapped hB0 ids)) (ix2 e (0 : Fin 1))).toInt.toNat (50000 - 1) = _
  rw [column_apply hB1 (wrapped hB0 ids) e]
  rfl

variable {C : Nat}

/-- One step computed as "scale the rows, gather the source rows, scatter-add by target id, scale the rows" is the
    specification's step with the weights at the nodes. -/
theorem nodeHop_spec (gwf : GatherDims.WF ⟨2, ![50000, C]⟩ SE1 ⟨2, ![850000, C]⟩ [1] [0] [] [0] [] 1 ![1, C])
    (swf : ScatterDims.WF ⟨2, ![50000, C]⟩ SE1 ⟨2, ![850000, C]⟩ [1] [0] [0] 1)
    (hB : (⟨2, ![50000, 1]⟩ : Shape).BroadcastsInDim ⟨2, ![50000, C]⟩ (![0, 1] : Fin 2 → Fin 2))
    (d1 : FVec Ideal ⟨2, ![50000, 1]⟩ .f32) (rows cols : IVec SE 32)
    (zeros : FVec Ideal ⟨2, ![50000, C]⟩ .f32) (hz : ∀ i, zeros i = 0) (h : FVec Ideal ⟨2, ![50000, C]⟩ .f32) :
    (fun (v : Fin 50000) (c : Fin C) =>
      mulf (broadcastInDim ⟨2, ![50000, C]⟩ ![0, 1] hB d1)
        (Host.scatterAdd (rowScatterDims 50000 850000 C swf) zeros (broadcastInDim SE1 ![0] hB1 cols)
          (Host.gather (rowGatherDims 50000 850000 C gwf) (mulf (broadcastInDim ⟨2, ![50000, C]⟩ ![0, 1] hB d1) h)
            (broadcastInDim SE1 ![0] hB1 (wrapped hB0 rows)))) (ix2 v c))
      = Cert.Sgc.hopNode (seg cols) (node hB0 rows) (fun v => d1 (ix2 v (0 : Fin 1))) (fun v c => h (ix2 v c)) := by
  funext v c
  rw [nodeHop_apply (by decide) gwf swf hB d1 _ _ zeros hz h v c]
  unfold Cert.Sgc.hopNode
  refine congrArg (fun z => d1 (ix2 v (0 : Fin 1)) * z) (Finset.sum_congr rfl fun e _ => ?_)
  rw [column_apply hB1 cols e, srcRow_eq hB0 hB1 rows e]
  rfl

/-- One step computed as "gather the source rows, weigh each edge, scatter-add by target id" is the specification's step
    with per-edge weights, when the weight of edge `e` is `d (node rows e) * d (node cols e)`. -/
theorem edgeHop_spec (gwf : GatherDims.WF ⟨2, ![50000, C]⟩ SE1 ⟨2, ![850000, C]⟩ [1] [0] [] [0] [] 1 ![1, C])
    (swf : ScatterDims.WF ⟨2, ![50000, C]⟩ SE1 ⟨2, ![850000, C]⟩ [1] [0] [0] 1)
    (hBe : SE1.BroadcastsInDim ⟨2, ![850000, C]⟩ (![0, 1] : Fin 2 → Fin 2))
    (nrm : FVec Ideal SE1 .f32) (d : Fin 50000 → EReal) (rows cols : IVec SE 32)
    (hnrm : ∀ e : Fin 850000, nrm (ix2 e (0 : Fin 1)) = d (node hB0 rows e) * d (node hB0 cols e))
    (zeros : FVec Ideal ⟨2, ![50000, C]⟩ .f32) (hz : ∀ i, zeros i = 0) (h : FVec Ideal ⟨2, ![50000, C]⟩ .f32) :
    (fun (v : Fin 50000) (c : Fin C) =>
      Host.scatterAdd (rowScatterDims 50000 850000 C swf) zeros (broadcastInDim SE1 ![0] hB1 cols)
        (mulf (broadcastInDim ⟨2, ![850000, C]⟩ ![0, 1] hBe nrm)
          (Host.gather (rowGatherDims 50000 850000 C gwf) h (broadcastInDim SE1 ![0] hB1 (wrapped hB0 rows)))) (ix2 v c))
      = Cert.Sgc.hopEdge (seg cols) (node hB0 rows) (node hB0 cols) d (fun v c => h (ix2 v c)) := by
  funext v c
  rw [edgeHop_apply (by decide) gwf swf hBe nrm _ _ zeros hz h v c]
  unfold Cert.Sgc.hopEdge
  refine Finset.sum_congr rfl fun e _ => ?_
  rw [column_apply hB1 cols e, srcRow_eq hB0 hB1 rows e, hnrm e]
  rfl

end Cert.GraphData

end
-- ==== Proof.LibVecGather.lean ====
/-
Gather of a vector at an integer vector, read at an index; and a scatter-add of real numbers is a real number.

`x[idx]` of a vector `x : [N]` at an integer vector `idx : [E]` is a `stablehlo.gather` with offset_dims `[]`,
collapsed_slice_dims `[0]`, start_index_map `[0]`, index_vector_dim 1 and slice_sizes `[1]` over the indices as
`[E, 1]`, with result `[E]`. Result element `e` is `x` at the start index `idx[e, 0]`, read as a signed integer and
clamped into `[0, N − 1]`.

An accumulating scatter at the extended reals gives, at each operand index, the operand element plus a finite sum of
update elements. When the operand element and every update element are real numbers (neither `+∞` nor `−∞`), so is
the result: a finite sum of real numbers is a real number.
-/
import Idealize.ShloMosaic.Lib.ValueIdx
import Idealize.ShloMosaic.PureOps.Ideal

noncomputable section

open scoped BigOperators

namespace Cert.LibVecGather

open Idealize.ShloMosaic Idealize.ShloMosaic.ValueIdx

/-! ## Vector gather -/

section Gather
variable {α : Type}

/-- The dimension numbers of a gather of single elements for an operand `[N]`, start indices `[E, 1]` and result
    `[E]`: the one operand axis is collapsed and indexed, there is no offset axis, a slice is one element. Their
    conditions `wf` are a parameter, so that any record with these fields is an instance whatever its proof. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the start index `idx[e, 0]`, read signed and clamped into
    `[0, N − 1]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  -- the one operand axis: collapsed, so no offset; not a batching axis; its start is the clamped index
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## A scatter-add of real numbers is a real number -/

section Scatter

/-- A finite sum of extended reals each of which is a real number is a real number. -/
theorem sum_real {ι : Type*} (t : Finset ι) (f : ι → EReal) (hf : ∀ j ∈ t, ∃ r : ℝ, f j = ((r : ℝ) : EReal)) :
    ∃ r : ℝ, ∑ j ∈ t, f j = ((r : ℝ) : EReal) := by
  classical
  induction t using Finset.induction_on with
  | empty => exact ⟨0, by simp⟩
  | insert a t ha ih =>
    obtain ⟨ra, hra⟩ := hf a (Finset.mem_insert_self a t)
    obtain ⟨rt, hrt⟩ := ih fun j hj => hf j (Finset.mem_insert_of_mem hj)
    refine ⟨ra + rt, ?_⟩
    rw [Finset.sum_insert ha, hra, hrt, EReal.coe_add]

/-- THE ACCUMULATING SCATTER KEEPS REAL NUMBERS REAL: for any dimension numbers, at an operand index whose element is
    a real number, and with every update element a real number, the result element is a real number. -/
theorem hostScatterAdd_real {s si su : Shape} (D : ScatterDims s si su) {w : Nat} (x : s.Idx → EReal) (idx : IVec si w)
    (upd : su.Idx → EReal) (i : s.Idx) (hx : ∃ r : ℝ, x i = ((r : ℝ) : EReal))
    (hupd : ∀ j, ∃ r : ℝ, upd j = ((r : ℝ) : EReal)) :
    ∃ r : ℝ, Ideal.hostScatterAdd D x idx upd i = ((r : ℝ) : EReal) := by
  unfold Ideal.hostScatterAdd
  obtain ⟨rx, hrx⟩ := hx
  obtain ⟨rs, hrs⟩ := sum_real (Finset.univ.filter (fun j => D.resultIdx? j idx = some i)) upd (fun j _ => hupd j)
  exact ⟨rx + rs, by rw [hrx, hrs, EReal.coe_add]⟩

end Scatter

end Cert.LibVecGather

end
-- ==== Proof.ReferenceStages.lean ====
/-
  The idealized reference, stage by stage, as the specification.

  The reference builds the same two id vectors and the same inverse-square-root-degree vector `dis` as the kernel, then
  gives every edge the weight `dis[source] * dis[target]` (two gathers of `dis` through the wrapped ids), and runs three
  propagation steps on the node features themselves, each one "gather the source rows, multiply by the edge weight,
  scatter-add by target id". Read at an index each step is the specification's step with per-edge weights. The logits
  are the rows of the propagated features against the rows of the weight matrix, plus the bias.
-/
import proofs.«119294_j16020228014933_2_alg».proof.Proof.ReferenceReadP
import proofs.«119294_j16020228014933_2_alg».proof.Proof.GraphData
import proofs.«119294_j16020228014933_2_alg».proof.Proof.LibVecGather

set_option maxRecDepth 16384

noncomputable section

open scoped BigOperators

namespace Cert.ReferenceIdeal.Stages

open Cert.ReferenceIdeal Cert.ReferenceIdeal.Gen Cert.ReferenceIdeal.ReadP
open Idealize.ShloMosaic Idealize.ShloMosaic.ValueIdx Idealize.ShloMosaic.RowScatter
open Cert.GraphData Cert.LibWrapIndex Cert.LibVecGather

/-! ## The printed dimension records are the general ones -/

theorem gatherRows_eq : gather_S50000x128_S850000x1_S850000x128_1_0_n_n_0_1_1128
    = rowGatherDims 50000 850000 128 gather_S50000x128_S850000x1_S850000x128_1_0_n_n_0_1_1128.wf := rfl
theorem scatterRows_eq : scatter_S50000x128_S850000x1_S850000x128_1_0_0_1
    = rowScatterDims 50000 850000 128 scatter_S50000x128_S850000x1_S850000x128_1_0_0_1.wf := rfl
theorem gatherVec_eq : gather_S50000_S850000x1_S850000_n_0_n_n_0_1_1
    = vecGatherDims 50000 850000 gather_S50000_S850000x1_S850000_n_0_n_n_0_1_1.wf := rfl

variable (x0 : (⟨S50000x128, .f32⟩ : BufTy).Contents (Elt Ideal)) (x1 : (⟨S2x800000, .i32⟩ : BufTy).Contents (Elt Ideal))
  (x2 : (⟨S40x128, .f32⟩ : BufTy).Contents (Elt Ideal)) (x3 : (⟨S40, .f32⟩ : BufTy).Contents (Elt Ideal))

/-- The inverse square roots of the degrees, node by node. -/
def dis (v : Fin 50000) : EReal := val_main_v15 (F := Ideal) x1 (ix1 v)

/-- The source ids and the target ids. -/
abbrev rows : IVec SE 32 := val_main_v5 (F := Ideal) x1
abbrev cols : IVec SE 32 := val_main_v6 (F := Ideal) x1

/-- `dis` gathered through the wrapped source ids is `dis` at the node the edge reads. -/
theorem dis_rows_apply (e : Fin 850000) :
    val_main_v22 (F := Ideal) x1 (ix1 e) = dis x1 (node bcast_S_S850000 (rows x1) e) := by
  unfold val_main_v22
  rw [gatherVec_eq]
  refine (vecGather_apply (by decide) _ (val_main_v15 (F := Ideal) x1) (val_main_v21 (F := Ideal) x1) e).trans ?_
  unfold dis
  refine congrArg (val_main_v15 (F := Ideal) x1) (congrArg ix1 (Fin.ext ?_))
  show min ((val_main_v21 (F := Ideal) x1) (ix2 e (0 : Fin 1))).toInt.toNat (50000 - 1) = _
  unfold val_main_v21
  rw [column_apply bcast_S850000_S850000x1_0 (val_main_v20 (F := Ideal) x1) e]
  rfl

/-- … and through the wrapped target ids, `dis` at the node the target id names. -/
theorem dis_cols_apply (e : Fin 850000) :
    val_main_v29 (F := Ideal) x1 (ix1 e) = dis x1 (node bcast_S_S850000 (cols x1) e) := by
  unfold val_main_v29
  rw [gatherVec_eq]
  refine (vecGather_apply (by decide) _ (val_main_v15 (F := Ideal) x1) (val_main_v28 (F := Ideal) x1) e).trans ?_
  unfold dis
  refine congrArg (val_main_v15 (F := Ideal) x1) (congrArg ix1 (Fin.ext ?_))
  show min ((val_main_v28 (F := Ideal) x1) (ix2 e (0 : Fin 1))).toInt.toNat (50000 - 1) = _
  unfold val_main_v28
  rw [column_apply bcast_S850000_S850000x1_0 (val_main_v27 (F := Ideal) x1) e]
  rfl

/-- The weight of edge `e`, read through the column the steps broadcast: `dis` at its source times `dis` at its
    target. -/
theorem weight_apply (e : Fin 850000) :
    (broadcastInDim S850000x1 ![0] bcast_S850000_S850000x1_0 (val_main_v30 (F := Ideal) x1)) (ix2 e (0 : Fin 1))
      = dis x1 (node bcast_S_S850000 (rows x1) e) * dis x1 (node bcast_S_S850000 (cols x1) e) := by
  rw [column_any_apply bcast_S850000_S850000x1_0 (val_main_v30 (F := Ideal) x1) e]
  unfold val_main_v30
  rw [mulf_apply, dis_rows_apply, dis_cols_apply]

/-- A scalar zero broadcast to a matrix is zero at every entry. -/
theorem zeros_apply (i : S50000x128.Idx) :
    (broadcastInDim S50000x128 ![] bcast_S_S50000x128 (constant (F := Ideal) S_ .f32 0x00000000#32)) i = 0 := by
  rw [broadcastInDim_apply _ bcast_S_S50000x128 _ i (fun a => a.elim0) (fun a => a.elim0)]
  exact Ideal.ofBits_zero_f32

/-- The three steps. -/
theorem step1 :
    (fun (v : Fin 50000) (j : Fin 128) => val_main_v43 (F := Ideal) x0 x1 (ix2 v j))
      = Cert.Sgc.hopEdge (seg (cols x1)) (node bcast_S_S850000 (rows x1)) (node bcast_S_S850000 (cols x1)) (dis x1)
          (fun v j => x0 (ix2 v j)) :=
  edgeHop_spec (C := 128) bcast_S_S850000 bcast_S850000_S850000x1_0
    gather_S50000x128_S850000x1_S850000x128_1_0_n_n_0_1_1128.wf scatter_S50000x128_S850000x1_S850000x128_1_0_0_1.wf
    bcast_S850000x1_S850000x128_0_1 (val_main_v31 (F := Ideal) x1) (dis x1) (rows x1) (cols x1) (weight_apply x1)
    (val_main_v41 (F := Ideal)) zeros_apply x0

theorem step2 :
    (fun (v : Fin 50000) (j : Fin 128) => val_main_v56 (F := Ideal) x0 x1 (ix2 v j))
      = Cert.Sgc.hopEdge (seg (cols x1)) (node bcast_S_S850000 (rows x1)) (node bcast_S_S850000 (cols x1)) (dis x1)
          (fun v j => val_main_v43 (F := Ideal) x0 x1 (ix2 v j)) :=
  edgeHop_spec (C := 128) bcast_S_S850000 bcast_S850000_S850000x1_0
    gather_S50000x128_S850000x1_S850000x128_1_0_n_n_0_1_1128.wf scatter_S50000x128_S850000x1_S850000x128_1_0_0_1.wf
    bcast_S850000x1_S850000x128_0_1 (val_main_v44 (F := Ideal) x1) (dis x1) (rows x1) (cols x1) (weight_apply x1)
    (val_main_v54 (F := Ideal)) zeros_apply (val_main_v43 (F := Ideal) x0 x1)

theorem step3 :
    (fun (v : Fin 50000) (j : Fin 128) => val_main_v69 (F := Ideal) x0 x1 (ix2 v j))
      = Cert.Sgc.hopEdge (seg (cols x1)) (node bcast_S_S850000 (rows x1)) (node bcast_S_S850000 (cols x1)) (dis x1)
          (fun v j => val_main_v56 (F := Ideal) x0 x1 (ix2 v j)) :=
  edgeHop_spec (C := 128) bcast_S_S850000 bcast_S850000_S850000x1_0
    gather_S50000x128_S850000x1_S850000x128_1_0_n_n_0_1_1128.wf scatter_S50000x128_S850000x1_S850000x128_1_0_0_1.wf
    bcast_S850000x1_S850000x128_0_1 (val_main_v57 (F := Ideal) x1) (dis x1) (rows x1) (cols x1) (weight_apply x1)
    (val_main_v67 (F := Ideal)) zeros_apply (val_main_v56 (F := Ideal) x0 x1)

/-- The logits at `(v, c)`: the propagated features' row `v` against the weights' row `c`, plus the bias at `c`. -/
theorem logits_apply (v : Fin 50000) (c : Fin 40) :
    val_main_v74 (F := Ideal) x0 x1 x2 x3 (ix2 v c)
      = Cert.Sgc.proj (fun (v : Fin 50000) (j : Fin 128) => val_main_v69 (F := Ideal) x0 x1 (ix2 v j))
          (fun (c : Fin 40) (j : Fin 128) => x2 (ix2 c j)) v c + x3 (ix1 c) := by
  rw [val_main_v74_apply, val_main_v71_apply, val_main_v73_apply, val_main_v72_apply]
  unfold Cert.Sgc.proj
  show (∑ k : Fin 128, _) + _ = _
  refine congrArg₂ (· + ·) (Finset.sum_congr rfl fun k _ => ?_) ?_
  · have el : lidx_main_v71 (ix2 v c) k = ix2 v k :=
      funext fun a => Fin.ext (by match a with | ⟨0, _⟩ => rfl | ⟨1, _⟩ => rfl)
    have er : idx_main_v70 (ridx_main_v71 (ix2 v c) k) = ix2 c k :=
      funext fun a => Fin.ext (by match a with | ⟨0, _⟩ => rfl | ⟨1, _⟩ => rfl)
    rw [val_main_v70_apply, el, er]
  · exact congrArg x3 (funext fun a => Fin.ext (by match a with | ⟨0, _⟩ => rfl))

end Cert.ReferenceIdeal.Stages

end
-- ==== Proof.EpilogueReference.lean ====
/-
  The reference's log-softmax call read at an index: its result at row `v`, column `c` is the row function
  `Cert.Lsm.logSoftmaxRow` of the row `v` of the matrix the call is applied to.

  The call's stages are, in order: the maximum of each row from `-∞`; the maximum of that with `-∞` (the identity);
  that column broadcast along the rows; the difference; its exponential; the sum of each row from `0`; its logarithm,
  broadcast along the rows; the final difference. Each is read at an index by the generated lemma of that stage, the
  row maximum by the fold over the reduced axis's coordinates.
-/
import proofs.«119294_j16020228014933_2_alg».proof.Proof.ReferenceReadP
import proofs.«119294_j16020228014933_2_alg».proof.Proof.LogSoftmaxSpec

noncomputable section

namespace Cert.EpilogueReference

open Idealize.ShloMosaic Idealize.ShloMosaic.ValueIdx Idealize.ShloMosaic.StableHlo Cert.ReferenceIdeal Cert.ReferenceIdeal.Gen
  Cert.ReferenceIdeal.ReadP

/-- The host's maximum reduction along the rows of a `[50000, 40]` matrix from a scalar starting value, read at a row:
    the fold of `max` from that value over the forty columns. -/
theorem hostReduce_max_row (l : FVec Ideal S50000x40 .f32) (init : S_.Idx → Ideal .f32) (v : Fin 50000) :
    Host.reduce FloatOps.maximumf l init reducesTo_S50000x40_S50000_d1 h_S_ (ix1 v)
      = (Finset.univ : Finset (Fin 40)).fold max (init (Shape.Idx.first h_S_)) (fun c' => l (ix2 v c')) := by
  refine (Host.reduce_eq_fold_single FloatOps.maximumf l init reducesTo_S50000x40_S50000_d1 (by decide) h_S_ (ix1 v)).trans ?_
  refine Finset.fold_congr fun q _ => ?_
  exact congrArg l (funext fun d => Fin.ext (by match d with | ⟨0, _⟩ => rfl | ⟨1, _⟩ => rfl))

variable (x0 : (⟨S50000x128, .f32⟩ : BufTy).Contents (Elt Ideal)) (x1 : (⟨S2x800000, .i32⟩ : BufTy).Contents (Elt Ideal))
  (x2 : (⟨S40x128, .f32⟩ : BufTy).Contents (Elt Ideal)) (x3 : (⟨S40, .f32⟩ : BufTy).Contents (Elt Ideal))

/-- The row-maximum stage at row `v` is the maximum of that row of the call's argument. -/
theorem val_main_call1_v0_row (v : Fin 50000) :
    val_main_call1_v0 (F := Ideal) x0 x1 x2 x3 (ix1 v)
      = Cert.Lsm.rowMax (fun c' => val_main_v74 (F := Ideal) x0 x1 x2 x3 (ix2 v c')) := by
  unfold val_main_call1_v0
  generalize val_main_v74 (F := Ideal) x0 x1 x2 x3 = l
  refine (hostReduce_max_row l _ v).trans ?_
  exact Cert.Lsm.fold_max_ofBits _

/-- The maximum of `-∞` and the row maximum, at row `v`: the row maximum. -/
theorem val_main_call1_v2_row (v : Fin 50000) :
    val_main_call1_v2 (F := Ideal) x0 x1 x2 x3 (ix1 v)
      = Cert.Lsm.rowMax (fun c' => val_main_v74 (F := Ideal) x0 x1 x2 x3 (ix2 v c')) := by
  rw [val_main_call1_v2_apply, val_main_call1_v1_apply, val_main_call1_cst_0_apply, val_main_call1_v0_row]
  show max (Ideal.ofBits .f32 0xFF800000#32) _ = _
  rw [Cert.Lsm.ofBits_negInf]
  exact Cert.Lsm.max_bot_rowMax _

/-- The shifted entry: the argument at `(v, k)` less the maximum of row `v`. -/
theorem val_main_call1_v5_row (v : Fin 50000) (k : Fin 40) :
    val_main_call1_v5 (F := Ideal) x0 x1 x2 x3 (ix2 v k)
      = val_main_v74 (F := Ideal) x0 x1 x2 x3 (ix2 v k)
        - Cert.Lsm.rowMax (fun c' => val_main_v74 (F := Ideal) x0 x1 x2 x3 (ix2 v c')) := by
  have e4 : idx_main_call1_v4 (ix2 v k) = ix2 v (0 : Fin 1) :=
    funext fun a => Fin.ext (by match a with | ⟨0, _⟩ => rfl | ⟨1, _⟩ => rfl)
  have e3 : idx_main_call1_v3 (ix2 v (0 : Fin 1)) = ix1 v :=
    funext fun a => Fin.ext (by match a with | ⟨0, _⟩ => rfl)
  rw [val_main_call1_v5_apply, val_main_call1_v4_apply, e4, val_main_call1_v3_apply, e3, val_main_call1_v2_row,
    Ideal.subf_def]

/-- The reference's log-softmax at `(v, c)` is the row function of row `v` of its argument. -/
theorem val_main_v75_row (v : Fin 50000) (c : Fin 40) :
    val_main_v75 (F := Ideal) x0 x1 x2 x3 (ix2 v c)
      = Cert.Lsm.logSoftmaxRow (fun c' => val_main_v74 (F := Ideal) x0 x1 x2 x3 (ix2 v c')) c := by
  have e10 : idx_main_call1_v10 (ix2 v c) = ix2 v (0 : Fin 1) :=
    funext fun a => Fin.ext (by match a with | ⟨0, _⟩ => rfl | ⟨1, _⟩ => rfl)
  have e8 : idx_main_call1_v8 (ix2 v (0 : Fin 1)) = ix1 v :=
    funext fun a => Fin.ext (by match a with | ⟨0, _⟩ => rfl)
  have e7 : ∀ k : Fin 40, idx_main_call1_v7 (ix1 v) k = ix2 v k := fun k =>
    funext fun a => Fin.ext (by match a with | ⟨0, _⟩ => rfl | ⟨1, _⟩ => rfl)
  have hsum : ∑ k : Fin 40, (val_main_call1_v6 (F := Ideal) x0 x1 x2 x3) (idx_main_call1_v7 (ix1 v) k)
      = ∑ k : Fin 40, Ideal.exp (val_main_v74 (F := Ideal) x0 x1 x2 x3 (ix2 v k)
          - Cert.Lsm.rowMax (fun c' => val_main_v74 (F := Ideal) x0 x1 x2 x3 (ix2 v c'))) :=
    Finset.sum_congr rfl fun k _ => by
      rw [e7 k, val_main_call1_v6_apply, val_main_call1_v5_row, Ideal.hostUnary_exp_def]
  rw [val_main_v75_apply, val_main_call1_v5_row, val_main_call1_v10_apply, e10, val_main_call1_v9_apply,
    val_main_call1_v8_apply, e8, val_main_call1_v7_apply, val_main_call1_cst_1_apply, hsum]
  generalize val_main_v74 (F := Ideal) x0 x1 x2 x3 = l
  show (l (ix2 v c) - _) - Ideal.log (Ideal.ofBits .f32 0x00000000#32 + _) = _
  rw [Cert.Lsm.ofBits_zero, zero_add]
  rfl

end Cert.EpilogueReference

end
-- ==== Proof.SgcLinear.lean ====
/-
  Linearity of simplified graph convolution over the real numbers: when the degree weights, the features and the
  projection matrix are all real, each operation of the specification maps real-valued arrays to real-valued arrays, and
  one propagation step commutes with the projection. Chaining the step three times moves the projection from after the
  three edge-weighted steps to before the three node-weighted steps.
-/
import proofs.«119294_j16020228014933_2_alg».proof.Proof.SgcSpec
import Mathlib

noncomputable section

open scoped BigOperators

namespace Cert.Sgc

variable {N E D C : Type} [Fintype N] [Fintype E] [Fintype D] [Fintype C]

/-! Real-valued twins of the three operations, the lemmas that move the coercion `ℝ → EReal` through each of them,
    and the commutation of one propagation step with the projection over `ℝ`, chained three times. -/

/-- The coercion of the real numbers into the extended reals commutes with finite sums. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- `hopEdge` over the real numbers. -/
def hopEdgeR (seg : E → N → Prop) [∀ e v, Decidable (seg e v)] (r q : E → N) (d : N → ℝ)
    (h : N → D → ℝ) : N → D → ℝ :=
  fun v j => ∑ e, if seg e v then (d (r e) * d (q e)) * h (r e) j else 0

/-- `hopNode` over the real numbers. -/
def hopNodeR (seg : E → N → Prop) [∀ e v, Decidable (seg e v)] (r : E → N) (d : N → ℝ)
    (h : N → C → ℝ) : N → C → ℝ :=
  fun v c => d v * ∑ e, if seg e v then d (r e) * h (r e) c else 0

/-- `proj` over the real numbers. -/
def projR (h : N → D → ℝ) (w : C → D → ℝ) : N → C → ℝ :=
  fun v c => ∑ j, h v j * w c j

/-- On real-valued arrays `hopEdge` is the coercion of `hopEdgeR`. -/
theorem hopEdge_coe (seg : E → N → Prop) [∀ e v, Decidable (seg e v)] (r q : E → N) (d : N → ℝ)
    (h : N → D → ℝ) :
    hopEdge seg r q (fun v => ((d v : ℝ) : EReal)) (fun v j => ((h v j : ℝ) : EReal))
      = fun v j => ((hopEdgeR seg r q d h v j : ℝ) : EReal) := by
  funext v j
  simp only [hopEdge, hopEdgeR]
  rw [coe_sum]
  refine Finset.sum_congr rfl (fun e _ => ?_)
  by_cases hs : seg e v
  · simp only [hs, if_true, EReal.coe_mul]
  · simp only [hs, if_false, EReal.coe_zero]

/-- On real-valued arrays `hopNode` is the coercion of `hopNodeR`. -/
theorem hopNode_coe (seg : E → N → Prop) [∀ e v, Decidable (seg e v)] (r : E → N) (d : N → ℝ)
    (h : N → C → ℝ) :
    hopNode seg r (fun v => ((d v : ℝ) : EReal)) (fun v c => ((h v c : ℝ) : EReal))
      = fun v c => ((hopNodeR seg r d h v c : ℝ) : EReal) := by
  funext v c
  simp only [hopNode, hopNodeR]
  rw [EReal.coe_mul, coe_sum]
  congr 1
  refine Finset.sum_congr rfl (fun e _ => ?_)
  by_cases hs : seg e v
  · simp only [hs, if_true, EReal.coe_mul]
  · simp only [hs, if_false, EReal.coe_zero]

/-- On real-valued arrays `proj` is the coercion of `projR`. -/
theorem proj_coe (h : N → D → ℝ) (w : C → D → ℝ) :
    proj (fun v j => ((h v j : ℝ) : EReal)) (fun c j => ((w c j : ℝ) : EReal))
      = fun v c => ((projR h w v c : ℝ) : EReal) := by
  funext v c
  simp only [proj, projR]
  rw [coe_sum]
  refine Finset.sum_congr rfl (fun j _ => ?_)
  rw [EReal.coe_mul]

/-- Over the real numbers one edge-weighted propagation step followed by the projection is the projection followed by
    one node-weighted step: the factor `d (q e)` equals `d v` on every edge summed into `v` and leaves the sum over
    the edges, and the sum over the feature columns moves inside the sum over the edges. -/
theorem projR_hopEdgeR (seg : E → N → Prop) [∀ e v, Decidable (seg e v)] (r q : E → N)
    (hq : ∀ e v, seg e v → q e = v) (d : N → ℝ) (h : N → D → ℝ) (w : C → D → ℝ) :
    projR (hopEdgeR seg r q d h) w = hopNodeR seg r d (projR h w) := by
  funext v c
  simp only [projR, hopEdgeR, hopNodeR]
  rw [Finset.mul_sum]
  simp_rw [Finset.sum_mul]
  rw [Finset.sum_comm]
  refine Finset.sum_congr rfl (fun e _ => ?_)
  by_cases hs : seg e v
  · simp only [hs, if_true]
    rw [hq e v hs, Finset.mul_sum, Finset.mul_sum]
    refine Finset.sum_congr rfl (fun j _ => ?_)
    ring
  · simp only [hs, if_false, zero_mul, mul_zero, Finset.sum_const_zero]

/-- Three edge-weighted propagation steps followed by the projection equal the projection followed by three
    node-weighted steps, when every input is a real number. -/
theorem proj_hopEdge3 (seg : E → N → Prop) [∀ e v, Decidable (seg e v)] (r q : E → N)
    (hq : ∀ e v, seg e v → q e = v) (dr : N → ℝ) (xr : N → D → ℝ) (wr : C → D → ℝ) :
    proj (hopEdge seg r q (fun v => ((dr v : ℝ) : EReal)) (hopEdge seg r q (fun v => ((dr v : ℝ) : EReal))
        (hopEdge seg r q (fun v => ((dr v : ℝ) : EReal)) (fun v j => ((xr v j : ℝ) : EReal)))))
        (fun c j => ((wr c j : ℝ) : EReal))
      = hopNode seg r (fun v => ((dr v : ℝ) : EReal)) (hopNode seg r (fun v => ((dr v : ℝ) : EReal))
          (hopNode seg r (fun v => ((dr v : ℝ) : EReal))
            (proj (fun v j => ((xr v j : ℝ) : EReal)) (fun c j => ((wr c j : ℝ) : EReal))))) := by
  rw [hopEdge_coe, hopEdge_coe, hopEdge_coe, proj_coe, proj_coe, hopNode_coe, hopNode_coe, hopNode_coe]
  rw [projR_hopEdgeR seg r q hq, projR_hopEdgeR seg r q hq, projR_hopEdgeR seg r q hq]

/-- The projection followed by three node-weighted steps is real-valued when every input is a real number. -/
theorem hopNode3_real (seg : E → N → Prop) [∀ e v, Decidable (seg e v)] (r : E → N)
    (dr : N → ℝ) (xr : N → D → ℝ) (wr : C → D → ℝ) :
    ∃ g : N → C → ℝ,
      hopNode seg r (fun v => ((dr v : ℝ) : EReal)) (hopNode seg r (fun v => ((dr v : ℝ) : EReal))
          (hopNode seg r (fun v => ((dr v : ℝ) : EReal))
            (proj (fun v j => ((xr v j : ℝ) : EReal)) (fun c j => ((wr c j : ℝ) : EReal)))))
        = fun v c => ((g v c : ℝ) : EReal) :=
  ⟨hopNodeR seg r dr (hopNodeR seg r dr (hopNodeR seg r dr (projR xr wr))), by
    rw [proj_coe, hopNode_coe, hopNode_coe, hopNode_coe]⟩

end Cert.Sgc

end
-- ==== Proof.LibInvSqrtDegree.lean ====
/-
The inverse square root of a degree vector is a vector of real numbers.

The normalisation vector of a graph convolution is `dis := if deg > 0 then 1 / √deg else 0`, elementwise, where `deg`
is a scatter-add of ones into zeros (the number of edges arriving at each node). At the extended reals `1 / √d` of a
positive real `d` is the real `(√d)⁻¹` (only `d = 0`, the infinities and the negatives give something else, and the
select does not read the quotient there); so when every `deg i` is a real number every `dis i` is one. A scatter-add of
the real 1 into the real 0 is a real number at every index, which gives the corollary for the degree vector itself.

Also here: the f32 words of 0 and of 1, and a scalar constant broadcast to any shape read at an index.
-/
import Idealize.ShloMosaic.PureOps.Ideal
import Idealize.ShloMosaic.Lib.ValueIdx
import proofs.«119294_j16020228014933_2_alg».proof.Proof.LibVecGather

noncomputable section

namespace Cert.LibInvSqrtDegree

open Idealize.ShloMosaic Idealize.ShloMosaic.ValueIdx

/-! ## Words and broadcast constants -/

/-- The f32 word `0x00000000` denotes 0. -/
theorem zero_word : Ideal.ofBits .f32 0x00000000#32 = (0 : EReal) := by simp [Ideal.ofBits, Ideal.ieee]

/-- The f32 word `0x3F800000` denotes 1. -/
theorem one_word : Ideal.ofBits .f32 0x3F800000#32 = (1 : EReal) := by
  simp [Ideal.ofBits, Ideal.ieee, -EReal.coe_mul]; norm_num

/-- A scalar constant broadcast to any shape reads, at every index, the extended real its word denotes. -/
theorem broadcast_const_apply {s : Shape} (hB : (⟨0, ![]⟩ : Shape).BroadcastsInDim s (![] : Fin 0 → Fin s.rank))
    (w : BitVec 32) (i : s.Idx) :
    broadcastInDim s ![] hB (constant (F := Ideal) (⟨0, ![]⟩ : Shape) .f32 w) i = Ideal.ofBits .f32 w := rfl

/-! ## The inverse square root under the select -/

/-- THE SCALAR STEP: for a real number `d`, "`1 / √d` when `d > 0`, else 0" is a real number: when the comparison's bit
    is 1, `d` is a positive real and its inverse square root is the real `(√d)⁻¹`; otherwise the value is 0. -/
theorem invSqrt_word_real (d z : EReal) (hd : ∃ r : ℝ, d = ((r : ℝ) : EReal)) (hz : z = 0) :
    ∃ r : ℝ, Scalar.select (Ideal.cmp .ogt d z) (Ideal.rsqrt d) z = ((r : ℝ) : EReal) := by
  obtain ⟨r, rfl⟩ := hd
  subst hz
  by_cases hpos : (0 : ℝ) < r
  · have hlt : (0 : EReal) < ((r : ℝ) : EReal) := by exact_mod_cast hpos
    have hc : Ideal.cmp .ogt ((r : ℝ) : EReal) 0 = 1#1 := by simp [Ideal.cmp, hlt]
    rw [hc, select_one, Ideal.rsqrt_coe, if_neg (not_lt.2 hpos.le), if_neg hpos.ne']
    exact ⟨_, rfl⟩
  · have hlt : ¬ (0 : EReal) < ((r : ℝ) : EReal) := by exact_mod_cast hpos
    have hc : Ideal.cmp .ogt ((r : ℝ) : EReal) 0 = 0#1 := by simp [Ideal.cmp, hlt]
    rw [hc, select_zero]
    exact ⟨0, EReal.coe_zero.symm⟩

/-- THE INVERSE SQUARE ROOT OF A REAL VECTOR IS REAL: with every `deg i` a real number and `zeros` the zero vector,
    `select (deg > zeros) (rsqrt deg) zeros` is a real number at every index. -/
theorem invSqrt_real {s : Shape} (deg zeros : FVec Ideal s .f32) (hdeg : ∀ i, ∃ r : ℝ, deg i = ((r : ℝ) : EReal))
    (hz : ∀ i, zeros i = 0) :
    ∀ i, ∃ r : ℝ, select (cmpf (F := Ideal) .ogt deg zeros) (Host.rsqrt deg) zeros i = ((r : ℝ) : EReal) := by
  intro i
  -- at an index each elementwise operation is the scalar one
  show ∃ r : ℝ, Scalar.select (Ideal.cmp .ogt (deg i) (zeros i)) (Ideal.rsqrt (deg i)) (zeros i) = ((r : ℝ) : EReal)
  exact invSqrt_word_real (deg i) (zeros i) (hdeg i) (hz i)

/-- A scatter-add of ones into zeros is a real number at every index. -/
theorem degree_real {s si su : Shape} (D : ScatterDims s si su) {w : Nat} (zeros : FVec Ideal s .f32) (idx : IVec si w)
    (ones : FVec Ideal su .f32) (hz : ∀ i, zeros i = 0) (ho : ∀ j, ones j = 1) :
    ∀ i, ∃ r : ℝ, Host.scatterAdd D zeros idx ones i = ((r : ℝ) : EReal) := fun i =>
  Cert.LibVecGather.hostScatterAdd_real D zeros idx ones i ⟨0, by rw [hz i]; exact EReal.coe_zero.symm⟩
    fun j => ⟨1, by rw [ho j]; exact EReal.coe_one.symm⟩

/-- THE COROLLARY FOR A DEGREE VECTOR: with `deg` the scatter-add of ones into zeros, the inverse square root under the
    select is a real number at every index. -/
theorem invSqrtDegree_real {s si su : Shape} (D : ScatterDims s si su) {w : Nat} (zeros : FVec Ideal s .f32)
    (idx : IVec si w) (ones : FVec Ideal su .f32) (hz : ∀ i, zeros i = 0) (ho : ∀ j, ones j = 1) :
    ∀ i, ∃ r : ℝ, select (cmpf (F := Ideal) .ogt (Host.scatterAdd D zeros idx ones) zeros)
      (Host.rsqrt (Host.scatterAdd D zeros idx ones)) zeros i = ((r : ℝ) : EReal) :=
  invSqrt_real (Host.scatterAdd D zeros idx ones) zeros (degree_real D zeros idx ones hz ho) hz

end Cert.LibInvSqrtDegree

end
-- ==== Proof.Bridge.lean ====
/-
  The two results are one function of the arguments.

  Both programs end with the same row-wise log-softmax, so it is enough that their logits agree entry by entry. The
  kernel's logits are three node-weighted propagation steps applied to the projected features, plus the bias; the
  reference's are the projection of three edge-weighted steps applied to the features, plus the bias. The two programs
  build the id vectors and the inverse-square-root-degree vector by the same operations on the edge list, so the graph is
  the same. The degrees are finite sums of ones, so their inverse square roots are real numbers; the features and the
  weights are real numbers by the precondition. Over the reals the projection commutes with propagation and the node
  weights can be pulled out of the edge sums, which is the equality of the logits.
-/
import proofs.«119294_j16020228014933_2_alg».proof.Proof.KernelValue
import proofs.«119294_j16020228014933_2_alg».proof.Proof.ReferenceStages
import proofs.«119294_j16020228014933_2_alg».proof.Proof.EpilogueReference
import proofs.«119294_j16020228014933_2_alg».proof.Proof.SgcLinear
import proofs.«119294_j16020228014933_2_alg».proof.Proof.LibInvSqrtDegree

set_option maxRecDepth 16384

noncomputable section

open scoped BigOperators

namespace Cert.Bridge

open Idealize.ShloMosaic Idealize.ShloMosaic.ValueIdx Idealize.ShloMosaic.RowScatter
open Cert.GraphData Cert.Sgc
open Cert.KernelIdeal.HostSide Cert.KernelIdeal.ResultValue
open Cert.ReferenceIdeal.Stages Cert.ReferenceIdeal.ReadP

abbrev X0 := (⟨Cert.ReferenceIdeal.S50000x128, .f32⟩ : BufTy).Contents (Elt Ideal)
abbrev X1 := (⟨Cert.ReferenceIdeal.S2x800000, .i32⟩ : BufTy).Contents (Elt Ideal)
abbrev X2 := (⟨Cert.ReferenceIdeal.S40x128, .f32⟩ : BufTy).Contents (Elt Ideal)
abbrev X3 := (⟨Cert.ReferenceIdeal.S40, .f32⟩ : BufTy).Contents (Elt Ideal)

variable (x0 : X0) (x1 : X1) (x2 : X2) (x3 : X3)

/-! ## The same graph -/

theorem rows_eq : rowIds x1 = rows x1 := rfl
theorem cols_eq : colIds x1 = cols x1 := rfl
theorem dis_eq (v : Fin 50000) : invSqrtDeg (F := Ideal) x1 (ix1 v) = dis x1 v := rfl

/-- The inverse square roots of the degrees are real numbers. -/
theorem dis_real : ∀ v : Fin 50000, ∃ r : ℝ, dis x1 v = ((r : ℝ) : EReal) := fun v =>
  Cert.LibInvSqrtDegree.invSqrtDegree_real Cert.ReferenceIdeal.scatter_S50000_S850000x1_S850000_n_0_0_1
    (val_main_v8 (F := Ideal)) (val_main_v9 (F := Ideal) x1) (val_main_v7 (F := Ideal))
    (fun i => (Cert.LibInvSqrtDegree.broadcast_const_apply Cert.ReferenceIdeal.Gen.bcast_S_S50000 _ i).trans Cert.LibInvSqrtDegree.zero_word)
    (fun j => (Cert.LibInvSqrtDegree.broadcast_const_apply Cert.ReferenceIdeal.Gen.bcast_S_S850000 _ j).trans Cert.LibInvSqrtDegree.one_word)
    (ix1 v)

/-! ## The kernel's three steps as the specification's -/

theorem nodeHop_eq (h : FVec Ideal Cert.KernelIdeal.S50000x40 .f32) :
    (fun (v : Fin 50000) (c : Fin 40) => nodeHop (scaleCol x1) (rowIds x1) (colIds x1) h (ix2 v c))
      = hopNode (seg (cols x1)) (node Cert.ReferenceIdeal.Gen.bcast_S_S850000 (rows x1)) (dis x1) (fun v c => h (ix2 v c)) := by
  have key := nodeHop_spec (C := 40) Cert.KernelIdeal.Gen.bcast_S_S850000 Cert.KernelIdeal.Gen.bcast_S850000_S850000x1_0
    Cert.KernelIdeal.gather_S50000x40_S850000x1_S850000x40_1_0_n_n_0_1_140.wf
    Cert.KernelIdeal.scatter_S50000x40_S850000x1_S850000x40_1_0_0_1.wf
    Cert.KernelIdeal.Gen.bcast_S50000x1_S50000x40_0_1 (scaleCol x1) (rowIds x1) (colIds x1)
    (broadcastInDim Cert.KernelIdeal.S50000x40 ![] Cert.KernelIdeal.Gen.bcast_S_S50000x40 (constant (F := Ideal) Cert.KernelIdeal.S_ .f32 0x00000000#32))
    (fun i => (Cert.LibInvSqrtDegree.broadcast_const_apply Cert.KernelIdeal.Gen.bcast_S_S50000x40 _ i).trans Cert.LibInvSqrtDegree.zero_word) h
  have hd : (fun v : Fin 50000 => scaleCol x1 (ix2 v (0 : Fin 1))) = dis x1 :=
    funext fun v => (column_any_apply Cert.KernelIdeal.Gen.bcast_S50000_S50000x1_0 (invSqrtDeg (F := Ideal) x1) v).trans (dis_eq x1 v)
  rw [hd] at key
  exact key

theorem propagated_spec :
    (fun (v : Fin 50000) (c : Fin 40) => propagated x0 x1 x2 (ix2 v c))
      = hopNode (seg (cols x1)) (node Cert.ReferenceIdeal.Gen.bcast_S_S850000 (rows x1)) (dis x1)
          (hopNode (seg (cols x1)) (node Cert.ReferenceIdeal.Gen.bcast_S_S850000 (rows x1)) (dis x1)
            (hopNode (seg (cols x1)) (node Cert.ReferenceIdeal.Gen.bcast_S_S850000 (rows x1)) (dis x1)
              (proj (fun (v : Fin 50000) (j : Fin 128) => x0 (ix2 v j)) (fun (c : Fin 40) (j : Fin 128) => x2 (ix2 c j))))) := by
  unfold propagated
  rw [nodeHop_eq x1, nodeHop_eq x1, nodeHop_eq x1]
  rfl

/-- The bias row at `(0, c)` is the bias at `c`. -/
theorem biasRow_apply (c : Fin 40) :
    shapeCast Cert.KernelIdeal.S1x40 x3 Cert.KernelIdeal.Gen.shapeCasts_S40_S1x40 (ix2 (0 : Fin 1) c) = x3 (ix1 c) :=
  shapeCast_apply x3 Cert.KernelIdeal.Gen.shapeCasts_S40_S1x40 (ix2 (0 : Fin 1) c) (ix1 c)
    (by rewrite [Shape.rowMajor_val_one, Shape.rowMajor_val_two]; show c.val = 0 * 40 + c.val; omega)

/-! ## The results -/

/-- With real features and real weights the two programs' logits agree, and so do their results. -/
theorem result_eq (h0 : ∀ i, ∃ r : ℝ, x0 i = ((r : ℝ) : EReal)) (h2 : ∀ i, ∃ r : ℝ, x2 i = ((r : ℝ) : EReal)) :
    result x0 x1 x2 x3 = val_main_v75 (F := Ideal) x0 x1 x2 x3 := by
  choose xr hxr using h0
  choose wr hwr using h2
  choose dr hdr using dis_real x1
  have hX : (fun (v : Fin 50000) (j : Fin 128) => x0 (ix2 v j)) = fun v j => ((xr (ix2 v j) : ℝ) : EReal) :=
    funext fun v => funext fun j => hxr _
  have hW : (fun (c : Fin 40) (j : Fin 128) => x2 (ix2 c j)) = fun c j => ((wr (ix2 c j) : ℝ) : EReal) :=
    funext fun c => funext fun j => hwr _
  have hD : dis x1 = fun v => ((dr v : ℝ) : EReal) := funext hdr
  have hlin := proj_hopEdge3 (seg (cols x1)) (node Cert.ReferenceIdeal.Gen.bcast_S_S850000 (rows x1))
    (node Cert.ReferenceIdeal.Gen.bcast_S_S850000 (cols x1))
    (fun e v h => node_of_seg Cert.ReferenceIdeal.Gen.bcast_S_S850000 (cols x1) e v h) dr
    (fun v j => xr (ix2 v j)) (fun c j => wr (ix2 c j))
  funext i
  obtain ⟨v, c, rfl⟩ : ∃ (v : Fin 50000) (c : Fin 40), i = ix2 v c := ⟨i 0, i 1, eq_ix2 i⟩
  rw [Cert.EpilogueReference.val_main_v75_row x0 x1 x2 x3 v c]
  show Cert.Lsm.logSoftmaxRow (fun c' : Fin 40 => propagated x0 x1 x2 (ix2 v c')
      + shapeCast Cert.KernelIdeal.S1x40 x3 Cert.KernelIdeal.Gen.shapeCasts_S40_S1x40 (ix2 (0 : Fin 1) c')) c = _
  refine congrArg (fun l => Cert.Lsm.logSoftmaxRow l c) (funext fun c' => ?_)
  rw [logits_apply x0 x1 x2 x3 v c', step3 x0 x1, step2 x0 x1, step1 x0 x1, biasRow_apply x3 c']
  refine congrArg (· + x3 (ix1 c')) ?_
  have hk := congrFun (congrFun (propagated_spec x0 x1 x2) v) c'
  rw [hX, hW, hD] at hk ⊢
  exact hk.trans (congrFun (congrFun hlin v) c').symm

end Cert.Bridge

end
-- ==== Proof.ReferenceRun.lean ====
/-
  The idealized reference's run, read back by hand.

  The reference is a straight line of 107 host operations. Every weakly fair execution of it terminates, nothing
  faulting, with every buffer at the fold of the operations' results over the launch contents. The fold is read here in
  seven stretches, cut where a value is used more than once: after the first 7 operations the two id vectors are
  built; after 20 the inverse square roots of the degrees; after 39 the edge weights; after 55, 71 and 87 the three
  propagation steps; the last 20 operations are the projection, the bias and the log-softmax. Between two cuts only a
  few buffers are live, and each of them holds the corresponding stage of the program's staged reading of the four
  launched arrays. Read at the result buffer the whole fold is the last stage, val_main_v75; read at an argument it
  is the argument, which no operation writes.
-/
import proofs.«119294_j16020228014933_2_alg».proof.Proof.ReferenceReadP
import Idealize.ShloMosaic.Lib.StableHlo.Run

set_option maxRecDepth 16384

noncomputable section

namespace Cert.ReferenceIdeal.RunByHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Folding a concatenation of two lists of operations is folding the first, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents carried to a typed reference's buffer and back are unchanged. -/
theorem ofBuf_toBuf {T : BufTy} (x : TRef sig T) (v : T.Contents (Elt F)) : x.ofBuf (x.toBuf v) = v := by
  unfold TRef.ofBuf TRef.toBuf
  rw [cast_cast, cast_eq]

/-- A stretch of the program, cut out of its operation list by take and drop at literal positions, as a literal list. -/
macro "open_stretch" : tactic =>
  `(tactic| simp only [ops, List.drop_succ_cons, List.drop_zero, List.take_succ_cons, List.take_zero])

/-- A buffer the stretch does not write: reading the stretch gives back what was there, which is the carried fact. -/
macro "carried" h:ident : tactic => `(tactic| (after_results_simp; exact $h))

section Stretches

variable (m : (ℓ : Loc nD τ sig) → Buf (Elt F) ℓ) (c : Dev nD)

/-- The four launched arrays. -/
abbrev x0 := m ((c.tc : Thread nD τ).loc main_arg0)
abbrev x1 := m ((c.tc : Thread nD τ).loc main_arg1)
abbrev x2 := m ((c.tc : Thread nD τ).loc main_arg2)
abbrev x3 := m ((c.tc : Thread nD τ).loc main_arg3)

/-- The contents after the first k operations. -/
def cont (k : Nat) : Valuation τ sig (Elt F) := after ((ops (F := F)).take k) (launchContents m c)

/-- The contents after n = j + k operations are the next k operations folded over the contents after j. -/
theorem cont_split (j k n : Nat) (h : n = j + k) :
    cont m c n = after (((ops (F := F)).drop j).take k) (cont m c j) := by
  subst h
  unfold cont
  rw [List.take_add, after_append]

/-- The whole fold is the operations from the k-th on, folded over the contents after k. -/
theorem after_from (k : Nat) (b : DevRef τ sig) :
    after (ops (F := F)) (launchContents m c) b = after ((ops (F := F)).drop k) (cont m c k) b := by
  unfold cont
  rw [← after_append, List.take_append_drop]

set_option maxHeartbeats 4000000 in
/-- After 7 operations: the two id vectors are built; the float arguments are as launched. -/
theorem at7 :
    cont m c 7 (Proc.devRef .tc main_v5) = val_main_v5 (F := F) (x1 m c)
      ∧ cont m c 7 (Proc.devRef .tc main_v6) = val_main_v6 (F := F) (x1 m c)
      ∧ cont m c 7 (Proc.devRef .tc main_arg0) = x0 m c
      ∧ cont m c 7 (Proc.devRef .tc main_arg2) = x2 m c
      ∧ cont m c 7 (Proc.devRef .tc main_arg3) = x3 m c := by
  unfold cont
  simp only [ops, List.take_succ_cons, List.take_zero]
  refine ⟨?_, ?_, ?_, ?_, ?_⟩ <;> (after_results; all_goals rfl)

set_option maxRecDepth 65536 in
set_option maxHeartbeats 8000000 in
/-- After 20 operations: the inverse square roots of the degrees are computed, from the target ids alone. -/
theorem at20 :
    cont m c 20 (Proc.devRef .tc main_v5) = val_main_v5 (F := F) (x1 m c)
      ∧ cont m c 20 (Proc.devRef .tc main_v6) = val_main_v6 (F := F) (x1 m c)
      ∧ cont m c 20 (Proc.devRef .tc main_v15) = val_main_v15 (F := F) (x1 m c)
      ∧ cont m c 20 (Proc.devRef .tc main_arg0) = x0 m c
      ∧ cont m c 20 (Proc.devRef .tc main_arg2) = x2 m c
      ∧ cont m c 20 (Proc.devRef .tc main_arg3) = x3 m c := by
  obtain ⟨hr, hc, h0, h2, h3⟩ := at7 m c
  rw [cont_split m c 7 13 20 rfl]
  generalize cont m c 7 = Wx at hr hc h0 h2 h3 ⊢
  open_stretch
  refine ⟨?_, ?_, ?_, ?_, ?_, ?_⟩
  · carried hr
  · carried hc
  · after_results_simp
    rw [hc]
    simp only [val_main_cst, val_main_v7, val_main_cst_0, val_main_v8, val_main_v9, val_main_v10, val_main_cst_1,
      val_main_v11, val_main_v12, val_main_v13, val_main_cst_2, val_main_v14, val_main_v15]
    all_goals rfl
  · carried h0
  · carried h2
  · carried h3

set_option maxRecDepth 65536 in
set_option maxHeartbeats 8000000 in
/-- After 39 operations: the edge weights are computed, from the two id vectors and the inverse square roots. -/
theorem at39 :
    cont m c 39 (Proc.devRef .tc main_v5) = val_main_v5 (F := F) (x1 m c)
      ∧ cont m c 39 (Proc.devRef .tc main_v6) = val_main_v6 (F := F) (x1 m c)
      ∧ cont m c 39 (Proc.devRef .tc main_v30) = val_main_v30 (F := F) (x1 m c)
      ∧ cont m c 39 (Proc.devRef .tc main_arg0) = x0 m c
      ∧ cont m c 39 (Proc.devRef .tc main_arg2) = x2 m c
      ∧ cont m c 39 (Proc.devRef .tc main_arg3) = x3 m c := by
  obtain ⟨hr, hc, hd, h0, h2, h3⟩ := at20 m c
  rw [cont_split m c 20 19 39 rfl]
  generalize cont m c 20 = Wx at hr hc hd h0 h2 h3 ⊢
  open_stretch
  refine ⟨?_, ?_, ?_, ?_, ?_, ?_⟩
  · carried hr
  · carried hc
  · after_results_simp
    rw [hr, hc, hd]
    simp only [val_main_c, val_main_v16, val_main_v17, val_main_c_3, val_main_v18, val_main_v19, val_main_v20,
      val_main_v21, val_main_v22, val_main_c_4, val_main_v23, val_main_v24, val_main_c_5, val_main_v25, val_main_v26,
      val_main_v27, val_main_v28, val_main_v29, val_main_v30]
    all_goals rfl
  · carried h0
  · carried h2
  · carried h3

set_option maxRecDepth 65536 in
set_option maxHeartbeats 8000000 in
/-- After 55 operations: the first propagation step is done, on the launched features. -/
theorem at55 :
    cont m c 55 (Proc.devRef .tc main_v5) = val_main_v5 (F := F) (x1 m c)
      ∧ cont m c 55 (Proc.devRef .tc main_v6) = val_main_v6 (F := F) (x1 m c)
      ∧ cont m c 55 (Proc.devRef .tc main_v30) = val_main_v30 (F := F) (x1 m c)
      ∧ cont m c 55 (Proc.devRef .tc main_v43) = val_main_v43 (F := F) (x0 m c) (x1 m c)
      ∧ cont m c 55 (Proc.devRef .tc main_arg2) = x2 m c
      ∧ cont m c 55 (Proc.devRef .tc main_arg3) = x3 m c := by
  obtain ⟨hr, hc, hw, h0, h2, h3⟩ := at39 m c
  rw [cont_split m c 39 16 55 rfl]
  generalize cont m c 39 = Wx at hr hc hw h0 h2 h3 ⊢
  open_stretch
  refine ⟨?_, ?_, ?_, ?_, ?_, ?_⟩
  · carried hr
  · carried hc
  · carried hw
  · after_results_simp
    rw [hr, hc, hw, h0]
    simp only [val_main_v31, val_main_c_6, val_main_v32, val_main_v33, val_main_c_7, val_main_v34, val_main_v35,
      val_main_v36, val_main_v37, val_main_v38, val_main_v39, val_main_v40, val_main_cst_8, val_main_v41, val_main_v42,
      val_main_v43]
    all_goals rfl
  · carried h2
  · carried h3

set_option maxRecDepth 65536 in
set_option maxHeartbeats 8000000 in
/-- After 71 operations: the second propagation step is done, on the first step's result. -/
theorem at71 :
    cont m c 71 (Proc.devRef .tc main_v5) = val_main_v5 (F := F) (x1 m c)
      ∧ cont m c 71 (Proc.devRef .tc main_v6) = val_main_v6 (F := F) (x1 m c)
      ∧ cont m c 71 (Proc.devRef .tc main_v30) = val_main_v30 (F := F) (x1 m c)
      ∧ cont m c 71 (Proc.devRef .tc main_v56) = val_main_v56 (F := F) (x0 m c) (x1 m c)
      ∧ cont m c 71 (Proc.devRef .tc main_arg2) = x2 m c
      ∧ cont m c 71 (Proc.devRef .tc main_arg3) = x3 m c := by
  obtain ⟨hr, hc, hw, hs, h2, h3⟩ := at55 m c
  rw [cont_split m c 55 16 71 rfl]
  generalize cont m c 55 = Wx at hr hc hw hs h2 h3 ⊢
  open_stretch
  refine ⟨?_, ?_, ?_, ?_, ?_, ?_⟩
  · carried hr
  · carried hc
  · carried hw
  · after_results_simp
    rw [hr, hc, hw, hs]
    simp only [val_main_v44, val_main_c_9, val_main_v45, val_main_v46, val_main_c_10, val_main_v47, val_main_v48,
      val_main_v49, val_main_v50, val_main_v51, val_main_v52, val_main_v53, val_main_cst_11, val_main_v54, val_main_v55,
      val_main_v56]
    all_goals rfl
  · carried h2
  · carried h3

set_option maxRecDepth 65536 in
set_option maxHeartbeats 8000000 in
/-- After 87 operations: the third propagation step is done, on the second step's result. -/
theorem at87 :
    cont m c 87 (Proc.devRef .tc main_v69) = val_main_v69 (F := F) (x0 m c) (x1 m c)
      ∧ cont m c 87 (Proc.devRef .tc main_arg2) = x2 m c
      ∧ cont m c 87 (Proc.devRef .tc main_arg3) = x3 m c := by
  obtain ⟨hr, hc, hw, hs, h2, h3⟩ := at71 m c
  rw [cont_split m c 71 16 87 rfl]
  generalize cont m c 71 = Wx at hr hc hw hs h2 h3 ⊢
  open_stretch
  refine ⟨?_, ?_, ?_⟩
  · after_results_simp
    rw [hr, hc, hw, hs]
    simp only [val_main_v57, val_main_c_12, val_main_v58, val_main_v59, val_main_c_13, val_main_v60, val_main_v61,
      val_main_v62, val_main_v63, val_main_v64, val_main_v65, val_main_v66, val_main_cst_14, val_main_v67, val_main_v68,
      val_main_v69]
    all_goals rfl
  · carried h2
  · carried h3

set_option maxRecDepth 65536 in
set_option maxHeartbeats 8000000 in
/-- The fold at the result buffer is the last stage of the staged reading: the last 20 operations project the third
    step's result, add the bias and take the row-wise log-softmax. The third step's result is kept as one opaque value
    while the two sides are compared. -/
theorem result_stage :
    after (ops (F := F)) (launchContents m c) (Proc.devRef .tc main_v75)
      = val_main_v75 (F := F) (x0 m c) (x1 m c) (x2 m c) (x3 m c) := by
  obtain ⟨hs, h2, h3⟩ := at87 m c
  rw [after_from m c 87]
  generalize cont m c 87 = Wx at hs h2 h3 ⊢
  simp only [ops, List.drop_succ_cons, List.drop_zero]
  after_results_simp
  rw [hs, h2, h3]
  simp only [ofBuf_toBuf]
  simp only [val_main_v70, val_main_v71, val_main_v72, val_main_v73, val_main_v74, val_main_call1_cst, val_main_call1_v0,
    val_main_call1_cst_0, val_main_call1_v1, val_main_call1_v2, val_main_call1_v3, val_main_call1_v4, val_main_call1_v5,
    val_main_call1_v6, val_main_call1_cst_1, val_main_call1_v7, val_main_call1_v8, val_main_call1_v9, val_main_call1_v10,
    val_main_v75]
  generalize val_main_v69 (F := F) (x0 m c) (x1 m c) = y
  all_goals rfl

/-- A buffer no operation writes ends at its launch contents. -/
theorem arg_kept (b : Ref sig .tc) (hb : ∀ op ∈ (ops (F := F)), Proc.devRef .tc b ∉ op.writes) :
    after (ops (F := F)) (launchContents m c) (Proc.devRef .tc b) = m ((c.tc : Thread nD τ).loc b) :=
  (StableHlo.after_of_forall_not_mem (b := Proc.devRef .tc b) _ _ hb).trans rfl

end Stretches

/-- No operation of the program writes a given buffer: each operation's one written buffer is another one. -/
macro "no_write_ops" : tactic => `(tactic| (
  refine List.forall_iff_forall_mem.mp ?_
  simp only [ops, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

set_option maxRecDepth 65536 in
set_option maxHeartbeats 40000000 in
theorem arg0_unwritten : ∀ op ∈ (ops (F := F)), Proc.devRef .tc main_arg0 ∉ op.writes := by no_write_ops
set_option maxRecDepth 65536 in
set_option maxHeartbeats 40000000 in
theorem arg1_unwritten : ∀ op ∈ (ops (F := F)), Proc.devRef .tc main_arg1 ∉ op.writes := by no_write_ops
set_option maxRecDepth 65536 in
set_option maxHeartbeats 40000000 in
theorem arg2_unwritten : ∀ op ∈ (ops (F := F)), Proc.devRef .tc main_arg2 ∉ op.writes := by no_write_ops
set_option maxRecDepth 65536 in
set_option maxHeartbeats 40000000 in
theorem arg3_unwritten : ∀ op ∈ (ops (F := F)), Proc.devRef .tc main_arg3 ∉ op.writes := by no_write_ops

/-- THE RUN: every weakly fair execution of the reference terminates, nothing faulting, with its result at the last
    stage of the staged reading of the launched arrays, and the four arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75)
        = val_main_v75 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v75).trans (result_stage m c),
       (h c main_arg0).trans (arg_kept m c main_arg0 arg0_unwritten),
       (h c main_arg1).trans (arg_kept m c main_arg1 arg1_unwritten),
       (h c main_arg2).trans (arg_kept m c main_arg2 arg2_unwritten),
       (h c main_arg3).trans (arg_kept m c main_arg3 arg3_unwritten)⟩)
    (run_seq scopedRefs_eq scopedSems_eq defs main (fun _ => ops) main_eq (fun _ => ops_sub) m ρ)

end Cert.ReferenceIdeal.RunByHand

end
-- ==== Proof.FiniteInputs.lean ====
/-
The precondition "every float input is finite", decoded.

The precondition is one `i1` scalar: the conjunction, over the three float inputs `x : [50000, 128]`, `w : [40, 128]` and
`b : [40]`, of "every element's absolute value is below `+∞`" (each an all-axes reduction by `and` of an elementwise
comparison against the constant `+∞`). At the extended reals an absolute value `max v (−v)` is below `+∞` exactly when
`v` is neither `+∞` nor `−∞`, that is, when `v` is a real number. So the scalar being 1 gives: every element of every
float input is a real number.
-/
import proofs.«119294_j16020228014933_2_alg».proof.Pre_finite_inputs
import Idealize.ShloMosaic.Lib.ReduceAll
import Idealize.ShloMosaic.Lib.ValueIdx
import Idealize.ShloMosaic.PureOps.Ideal

noncomputable section

namespace Cert.FiniteInputs

open Idealize.ShloMosaic

/-- The rank-0 shape has one index. -/
instance : Subsingleton Cert.Pre_finite_inputs.S_.Idx := ⟨fun a b => funext fun d => d.elim0⟩

/-- The f32 word `0x7F800000` denotes `+∞`. -/
theorem inf_word : Ideal.ofBits .f32 0x7F800000#32 = (⊤ : EReal) := by simp [Ideal.ofBits, Ideal.ieee]

/-- An extended real whose absolute value `max v (−v)` compares below the word of `+∞` is a real number: `+∞` and
    `−∞` both have absolute value `+∞`, which is not below itself. -/
theorem real_of_abs_lt_inf (v : EReal)
    (h : Ideal.cmp .olt (max v (-v)) (Ideal.ofBits .f32 0x7F800000#32) = 1#1) : ∃ r : ℝ, v = ((r : ℝ) : EReal) := by
  rw [inf_word] at h
  induction v using EReal.rec with
  | bot => exact absurd h (by simp [Ideal.cmp])
  | coe r => exact ⟨r, rfl⟩
  | top => exact absurd h (by simp [Ideal.cmp])

/-- The same at an index of an array: the elementwise comparison of `|a|` against the broadcast constant `+∞` being 1
    at `i` makes `a i` a real number. -/
theorem real_of_elem {s : Shape} (a : FVec Ideal s .f32)
    (hb : Cert.Pre_finite_inputs.S_.BroadcastsInDim s (![] : Fin 0 → Fin s.rank)) (i : s.Idx)
    (h : cmpf .olt (Host.absf a)
      (broadcastInDim s ![] hb (constant (F := Ideal) Cert.Pre_finite_inputs.S_ .f32 0x7F800000#32)) i = 1#1) :
    ∃ r : ℝ, a i = ((r : ℝ) : EReal) :=
  real_of_abs_lt_inf (a i) h

variable [Cert.Pre_finite_inputs.Facts]

/-- THE PRECONDITION DECODED: when the printed predicate is 1, every element of `x`, of `w` and of `b` is a real
    number. -/
theorem real_of_pre (x : FVec Ideal Cert.Pre_finite_inputs.S50000x128 .f32) (ei : IVec Cert.Pre_finite_inputs.S2x800000 32)
    (w : FVec Ideal Cert.Pre_finite_inputs.S40x128 .f32) (b : FVec Ideal Cert.Pre_finite_inputs.S40 .f32)
    (h : Cert.Pre_finite_inputs.fn (F := Ideal) x ei w b = fun _ => 1#1) :
    (∀ i, ∃ r : ℝ, x i = ((r : ℝ) : EReal)) ∧ (∀ i, ∃ r : ℝ, w i = ((r : ℝ) : EReal))
      ∧ (∀ i, ∃ r : ℝ, b i = ((r : ℝ) : EReal)) := by
  have e := congrFun h ValueIdx.ix0
  dsimp only [Cert.Pre_finite_inputs.fn] at e
  -- the scalar is (all x ∧ all w) ∧ all b
  obtain ⟨hxw, hb⟩ := IntOp.andi_eq_one.1 e
  obtain ⟨hx, hw⟩ := IntOp.andi_eq_one.1 hxw
  refine ⟨fun i => ?_, fun i => ?_, fun i => ?_⟩
  · exact real_of_elem x _ i (Host.reduce_andi_all _ _ _ _ _ hx i)
  · exact real_of_elem w _ i (Host.reduce_andi_all _ _ _ _ _ hw i)
  · exact real_of_elem b _ i (Host.reduce_andi_all _ _ _ _ _ hb i)

end Cert.FiniteInputs

end
-- ==== Proof.lean ====
/- The proof of `Cert.Claim`: the three frames, the (empty) idealization ledger, and the equality of the two idealized
   programs' results on the extended reals.

   The kernel projects the node features to the classes first and then propagates three times over the graph, with the
   symmetric normalisation `D^{-1/2} (A + I) D^{-1/2}` applied as a scaling of the rows before and after each
   gather-and-scatter; the reference propagates the features three times with per-edge weights and projects last. Both
   end in the same bias-plus-log-softmax, row by row. The projection acts on the feature axis and the propagation on the
   node axis, so they commute, and a node's weight can be pulled out of the sum over its edges — on the extended reals
   this is distributivity, which holds because every quantity involved is a real number: the inputs by the precondition,
   the inverse square roots of the degrees because a degree is a finite sum of ones.

   Proof/SgcSpec.lean and Proof/SgcLinear.lean hold the algebra; Proof/GraphData.lean the graph and one propagation step
   of either kind read at an entry; Proof/KernelRun.lean, Proof/Region0Value.lean, Proof/Region1Value.lean,
   Proof/KernelHost.lean and Proof/KernelValue.lean the kernel's result as a function of its arguments;
   Proof/ReferenceRun.lean, Proof/ReferenceStages.lean and Proof/EpilogueReference.lean the reference's; Proof/Bridge.lean their equality. -/
import proofs.«119294_j16020228014933_2_alg».proof.Defs
import proofs.«119294_j16020228014933_2_alg».proof.Proof.Gen.Kernel
import proofs.«119294_j16020228014933_2_alg».proof.Proof.Gen.Kernel.Skeleton
import proofs.«119294_j16020228014933_2_alg».proof.Proof.Gen.Kernel.Launch
import proofs.«119294_j16020228014933_2_alg».proof.Proof.Gen.Kernel.Points
import proofs.«119294_j16020228014933_2_alg».proof.Proof.Gen.Kernel.Frame
import proofs.«119294_j16020228014933_2_alg».proof.Proof.Gen.KernelIdeal
import proofs.«119294_j16020228014933_2_alg».proof.Proof.Gen.KernelIdeal.Skeleton
import proofs.«119294_j16020228014933_2_alg».proof.Proof.Gen.KernelIdeal.Launch
import proofs.«119294_j16020228014933_2_alg».proof.Proof.Gen.KernelIdeal.Points
import proofs.«119294_j16020228014933_2_alg».proof.Proof.Gen.KernelIdeal.Frame
import proofs.«119294_j16020228014933_2_alg».proof.Proof.Gen.ReferenceIdeal
import proofs.«119294_j16020228014933_2_alg».proof.Proof.Gen.Pre_finite_inputs
import proofs.«119294_j16020228014933_2_alg».proof.Proof.KernelRun
import proofs.«119294_j16020228014933_2_alg».proof.Proof.Bridge
import proofs.«119294_j16020228014933_2_alg».proof.Proof.ReferenceRun
import proofs.«119294_j16020228014933_2_alg».proof.Proof.FiniteInputs
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunByHand.run (F := Ideal) m ρ)

/-- From memories agreeing on the arguments both idealized programs run, and their results are one function of the
    arguments, the inputs being finite. -/
theorem algebraic : Cert.algebraic_KernelIdeal_ReferenceIdeal := by
  intro m ρ m' ρ' hpre hagree
  refine ⟨fun c => Cert.KernelIdeal.ResultValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.ResultValue.W6_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.RunByHand.run (F := Ideal) m' ρ')
    rw [(hagree c).1, (hagree c).2.1, (hagree c).2.2.1, (hagree c).2.2.2]
    obtain ⟨hx, hw, -⟩ := Cert.FiniteInputs.real_of_pre _ _ _ _ (hpre c)
    exact (Cert.Bridge.result_eq _ _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
